-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048x63 : Shape := ⟨2, ![2048, 63]⟩
abbrev S63 : Shape := ⟨1, ![63]⟩
abbrev S64x2048 : Shape := ⟨2, ![64, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x63 : S_.BroadcastsInDim S2048x63 (![] : Fin 0 → Fin S2048x63.rank)
  reducesTo_S2048x63_S_d0_1 : S2048x63.ReducesTo [0, 1] S_
  bcast_S_S63 : S_.BroadcastsInDim S63 (![] : Fin 0 → Fin S63.rank)
  reducesTo_S63_S_d0 : S63.ReducesTo [0] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_v13 : IVec S_ 1) (main_v16 : IVec S64x2048 1) : IVec S_ 1 :=
  let main_c_5 : IVec S_ 1 := constantI S_ 1 1#1
  let main_v17 : IVec S_ 1 := (fun x v => Host.reduce IntOp.andi x v reducesTo_S64x2048_S_d0_1 h_S_) main_v16 main_c_5
  let main_v18 : IVec S_ 1 := andi main_v13 main_v17
  main_v18

def fn {F : FTy → Type} [FloatOps F] (main_arg0 : FVec F S32768x2048 .f32) (main_arg1 : FVec F S2048x63 .f32) (main_arg2 : FVec F S63 .f32) (main_arg3 : FVec F S64x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048x63 .f32 := Host.absf main_arg1
  let main_cst_0 : FVec F S_ .f32 := constant S_ .f32 0x7F800000#32
  let main_v5 : FVec F S2048x63 .f32 := broadcastInDim S2048x63 ![] bcast_S_S2048x63 main_cst_0
  let main_v6 : IVec S2048x63 1 := cmpf .olt main_v4 main_v5
  let main_c_1 : IVec S_ 1 := constantI S_ 1 1#1
  let main_v7 : IVec S_ 1 := (fun x v => Host.reduce IntOp.andi x v reducesTo_S2048x63_S_d0_1 h_S_) main_v6 main_c_1
  let main_v8 : IVec S_ 1 := andi main_v3 main_v7
  let main_v9 : FVec F S63 .f32 := Host.absf main_arg2
  let main_cst_2 : FVec F S_ .f32 := constant S_ .f32 0x7F800000#32
  let main_v10 : FVec F S63 .f32 := broadcastInDim S63 ![] bcast_S_S63 main_cst_2
  let main_v11 : IVec S63 1 := cmpf .olt main_v9 main_v10
  let main_c_3 : IVec S_ 1 := constantI S_ 1 1#1
  let main_v12 : IVec S_ 1 := (fun x v => Host.reduce IntOp.andi x v reducesTo_S63_S_d0 h_S_) main_v11 main_c_3
  let main_v13 : IVec S_ 1 := andi main_v8 main_v12
  let main_v14 : FVec F S64x2048 .f32 := Host.absf main_arg3
  let main_cst_4 : FVec F S_ .f32 := constant S_ .f32 0x7F800000#32
  let main_v15 : FVec F S64x2048 .f32 := broadcastInDim S64x2048 ![] bcast_S_S64x2048 main_cst_4
  let main_v16 : IVec S64x2048 1 := cmpf .olt main_v14 main_v15
  fn_part1 (F := F) main_v13 main_v16
-- ==== Kernel.lean ====
abbrev S32768x2048 : Shape := ⟨2, ![32768, 2048]⟩
abbrev S2048x63 : Shape := ⟨2, ![2048, 63]⟩
abbrev S63 : Shape := ⟨1, ![63]⟩
abbrev S64x2048 : Shape := ⟨2, ![64, 2048]⟩
abbrev S1x63 : Shape := ⟨2, ![1, 63]⟩
abbrev S512x2048 : Shape := ⟨2, ![512, 2048]⟩
abbrev S512x63 : Shape := ⟨2, ![512, 63]⟩
abbrev S512x1 : Shape := ⟨2, ![512, 1]⟩
abbrev S512x2 : Shape := ⟨2, ![512, 2]⟩
abbrev S512x4 : Shape := ⟨2, ![512, 4]⟩
abbrev S512x8 : Shape := ⟨2, ![512, 8]⟩
abbrev S512x16 : Shape := ⟨2, ![512, 16]⟩
abbrev S512x32 : Shape := ⟨2, ![512, 32]⟩
abbrev S512x64 : Shape := ⟨2, ![512, 64]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048x63, .f32⟩
  | .hbm, ⟨2, _⟩ => ⟨S63, .f32⟩
  | .hbm, ⟨3, _⟩ => ⟨S64x2048, .f32⟩
  | .hbm, ⟨4, _⟩ => ⟨S1x63, .f32⟩
  | .hbm, ⟨5, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048x63, .f32⟩
  | .local _ .vmem, ⟨3, _⟩ => ⟨S1x63, .f32⟩
  | .local _ .vmem, ⟨4, _⟩ => ⟨S64x2048, .f32⟩
  | .local _ .vmem, ⟨5, _⟩ => ⟨S512x2048, .f32⟩
  | .local _ .vmem, ⟨6, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x63 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S63_S1x63 : S63.ShapeCasts S1x63
  inb_S512x2048_S512x2048_0_0 : ∀ a, (![0, 0] : Fin 2 → Nat) a + S512x2048.size a ≤ S512x2048.size a
  h_S512x2048 : 0 < S512x2048.numel
  inb_S2048x63_S2048x63_0_0 : ∀ a, (![0, 0] : Fin 2 → Nat) a + S2048x63.size a ≤ S2048x63.size a
  h_S2048x63 : 0 < S2048x63.numel
  inb_S1x63_S1x63_0_0 : ∀ a, (![0, 0] : Fin 2 → Nat) a + S1x63.size a ≤ S1x63.size a
  h_S1x63 : 0 < S1x63.numel
  shapeCasts_S1x63_S1x63 : S1x63.ShapeCasts S1x63
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  broadcasts_S1x63_S512x63 : S1x63.Broadcasts S512x63
  slices_S512x63_o0_0_S512x1 : S512x63.Slices ![0, 0] S512x1
  concatenates_S512x1_S512x1_S512x2_d1 : Shape.Concatenates [S512x1, S512x1] S512x2 1
  slices_S512x63_o0_1_S512x2 : S512x63.Slices ![0, 1] S512x2
  concatenates_S512x2_S512x2_S512x4_d1 : Shape.Concatenates [S512x2, S512x2] S512x4 1
  slices_S512x63_o0_3_S512x4 : S512x63.Slices ![0, 3] S512x4
  concatenates_S512x4_S512x4_S512x8_d1 : Shape.Concatenates [S512x4, S512x4] S512x8 1
  slices_S512x63_o0_7_S512x8 : S512x63.Slices ![0, 7] S512x8
  concatenates_S512x8_S512x8_S512x16_d1 : Shape.Concatenates [S512x8, S512x8] S512x16 1
  slices_S512x63_o0_15_S512x16 : S512x63.Slices ![0, 15] S512x16
  concatenates_S512x16_S512x16_S512x32_d1 : Shape.Concatenates [S512x16, S512x16] S512x32 1
  slices_S512x63_o0_31_S512x32 : S512x63.Slices ![0, 31] S512x32
  concatenates_S512x32_S512x32_S512x64_d1 : Shape.Concatenates [S512x32, S512x32] S512x64 1
  dot_S512x2048_S2048x63_S512x63_1_0_0_1_n_n_wf : DotDims.WF S512x2048 S2048x63 S512x63 [1] [0] [0] [1] [] []
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x63.size a ≤ S2048x63.size a
  hwx0_1 : ∀ i : grid0.Coords, EltTy.bits .f32 = 32 ∨ (Rect.block (s := S2048x63) S2048x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x63.size a ≤ S1x63.size a
  hwx0_2 : ∀ i : grid0.Coords, EltTy.bits .f32 = 32 ∨ (Rect.block (s := S1x63) S1x63.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .f32 = 32 ∨ (Rect.block (s := S64x2048) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S32768x2048.size a
  hwx0_4 : ∀ i : grid0.Coords, EltTy.bits .f32 = 32 ∨ (Rect.block (s := S32768x2048) S512x2048.size (cc0_transform_4 i) (hinb0_4 i)).WholeWords (EltTy.packing .f32)

variable [Facts₀]

def dot_S512x2048_S2048x63_S512x63_1_0_0_1_n_n : DotDims S512x2048 S2048x63 S512x63 where
  lhsContracting := [1]
  rhsContracting := [0]
  lhsNonContracting := [0]
  rhsNonContracting := [1]
  lhsBatch := []
  rhsBatch := []
  wf := dot_S512x2048_S2048x63_S512x63_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x63.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x63.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048x63 : Shape := ⟨2, ![2048, 63]⟩
abbrev S63 : Shape := ⟨1, ![63]⟩
abbrev S64x2048 : Shape := ⟨2, ![64, 2048]⟩
abbrev S32768x63 : Shape := ⟨2, ![32768, 63]⟩
abbrev S1x63 : Shape := ⟨2, ![1, 63]⟩
abbrev S_ : Shape := ⟨0, ![]⟩
abbrev S32768x1 : Shape := ⟨2, ![32768, 1]⟩
abbrev S32768x2 : Shape := ⟨2, ![32768, 2]⟩
abbrev S32768x4 : Shape := ⟨2, ![32768, 4]⟩
abbrev S32768x8 : Shape := ⟨2, ![32768, 8]⟩
abbrev S32768x16 : Shape := ⟨2, ![32768, 16]⟩
abbrev S32768x32 : Shape := ⟨2, ![32768, 32]⟩
abbrev S32768x64 : Shape := ⟨2, ![32768, 64]⟩

abbrev nBuf : Space → Nat
  | .hbm => 61
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x63, .f32⟩
  | .hbm, ⟨2, _⟩ => ⟨S63, .f32⟩
  | .hbm, ⟨3, _⟩ => ⟨S64x2048, .f32⟩
  | .hbm, ⟨4, _⟩ => ⟨S32768x63, .f32⟩
  | .hbm, ⟨5, _⟩ => ⟨S1x63, .f32⟩
  | .hbm, ⟨6, _⟩ => ⟨S32768x63, .f32⟩
  | .hbm, ⟨7, _⟩ => ⟨S32768x63, .f32⟩
  | .hbm, ⟨8, _⟩ => ⟨S32768x63, .f32⟩
  | .hbm, ⟨9, _⟩ => ⟨S32768x63, .f32⟩
  | .hbm, ⟨10, _⟩ => ⟨S_, .f32⟩
  | .hbm, ⟨11, _⟩ => ⟨S32768x63, .f32⟩
  | .hbm, ⟨12, _⟩ => ⟨S32768x63, .f32⟩
  | .hbm, ⟨13, _⟩ => ⟨S_, .f32⟩
  | .hbm, ⟨14, _⟩ => ⟨S32768x63, .f32⟩
  | .hbm, ⟨15, _⟩ => ⟨S32768x63, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x2, .f32⟩
  | .hbm, ⟨25, _⟩ => ⟨S32768x2, .f32⟩
  | .hbm, ⟨26, _⟩ => ⟨S32768x2, .f32⟩
  | .hbm, ⟨27, _⟩ => ⟨S_, .f32⟩
  | .hbm, ⟨28, _⟩ => ⟨S32768x2, .f32⟩
  | .hbm, ⟨29, _⟩ => ⟨S32768x2, .f32⟩
  | .hbm, ⟨30, _⟩ => ⟨S32768x2, .f32⟩
  | .hbm, ⟨31, _⟩ => ⟨S32768x4, .f32⟩
  | .hbm, ⟨32, _⟩ => ⟨S32768x4, .f32⟩
  | .hbm, ⟨33, _⟩ => ⟨S32768x4, .f32⟩
  | .hbm, ⟨34, _⟩ => ⟨S_, .f32⟩
  | .hbm, ⟨35, _⟩ => ⟨S32768x4, .f32⟩
  | .hbm, ⟨36, _⟩ => ⟨S32768x4, .f32⟩
  | .hbm, ⟨37, _⟩ => ⟨S32768x4, .f32⟩
  | .hbm, ⟨38, _⟩ => ⟨S32768x8, .f32⟩
  | .hbm, ⟨39, _⟩ => ⟨S32768x8, .f32⟩
  | .hbm, ⟨40, _⟩ => ⟨S32768x8, .f32⟩
  | .hbm, ⟨41, _⟩ => ⟨S_, .f32⟩
  | .hbm, ⟨42, _⟩ => ⟨S32768x8, .f32⟩
  | .hbm, ⟨43, _⟩ => ⟨S32768x8, .f32⟩
  | .hbm, ⟨44, _⟩ => ⟨S32768x8, .f32⟩
  | .hbm, ⟨45, _⟩ => ⟨S32768x16, .f32⟩
  | .hbm, ⟨46, _⟩ => ⟨S32768x16, .f32⟩
  | .hbm, ⟨47, _⟩ => ⟨S32768x16, .f32⟩
  | .hbm, ⟨48, _⟩ => ⟨S_, .f32⟩
  | .hbm, ⟨49, _⟩ => ⟨S32768x16, .f32⟩
  | .hbm, ⟨50, _⟩ => ⟨S32768x16, .f32⟩
  | .hbm, ⟨51, _⟩ => ⟨S32768x16, .f32⟩
  | .hbm, ⟨52, _⟩ => ⟨S32768x32, .f32⟩
  | .hbm, ⟨53, _⟩ => ⟨S32768x32, .f32⟩
  | .hbm, ⟨54, _⟩ => ⟨S32768x32, .f32⟩
  | .hbm, ⟨55, _⟩ => ⟨S_, .f32⟩
  | .hbm, ⟨56, _⟩ => ⟨S32768x32, .f32⟩
  | .hbm, ⟨57, _⟩ => ⟨S32768x32, .f32⟩
  | .hbm, ⟨58, _⟩ => ⟨S32768x32, .f32⟩
  | .hbm, ⟨59, _⟩ => ⟨S32768x64, .f32⟩
  | .hbm, ⟨60, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]

class Facts₀ : Prop where
  bcast_S63_S1x63_1 : S63.BroadcastsInDim S1x63 (![1] : Fin 1 → Fin S1x63.rank)
  bcast_S1x63_S32768x63_0_1 : S1x63.BroadcastsInDim S32768x63 (![0, 1] : Fin 2 → Fin S32768x63.rank)
  bcast_S_S32768x63 : S_.BroadcastsInDim S32768x63 (![] : Fin 0 → Fin S32768x63.rank)
  bcast_S_S32768x1 : S_.BroadcastsInDim S32768x1 (![] : Fin 0 → Fin S32768x1.rank)
  slices_S32768x63_S32768x1_0_0 : S32768x63.Slices ![0, 0] S32768x1
  concatenates_S32768x1_S32768x1_S32768x2_d1 : Shape.Concatenates [S32768x1, S32768x1] S32768x2 1
  slices_S32768x63_S32768x2_0_1 : S32768x63.Slices ![0, 1] S32768x2
  bcast_S_S32768x2 : S_.BroadcastsInDim S32768x2 (![] : Fin 0 → Fin S32768x2.rank)
  concatenates_S32768x2_S32768x2_S32768x4_d1 : Shape.Concatenates [S32768x2, S32768x2] S32768x4 1
  slices_S32768x63_S32768x4_0_3 : S32768x63.Slices ![0, 3] S32768x4
  bcast_S_S32768x4 : S_.BroadcastsInDim S32768x4 (![] : Fin 0 → Fin S32768x4.rank)
  concatenates_S32768x4_S32768x4_S32768x8_d1 : Shape.Concatenates [S32768x4, S32768x4] S32768x8 1
  slices_S32768x63_S32768x8_0_7 : S32768x63.Slices ![0, 7] S32768x8
  bcast_S_S32768x8 : S_.BroadcastsInDim S32768x8 (![] : Fin 0 → Fin S32768x8.rank)
  concatenates_S32768x8_S32768x8_S32768x16_d1 : Shape.Concatenates [S32768x8, S32768x8] S32768x16 1
  slices_S32768x63_S32768x16_0_15 : S32768x63.Slices ![0, 15] S32768x16
  bcast_S_S32768x16 : S_.BroadcastsInDim S32768x16 (![] : Fin 0 → Fin S32768x16.rank)
  concatenates_S32768x16_S32768x16_S32768x32_d1 : Shape.Concatenates [S32768x16, S32768x16] S32768x32 1
  slices_S32768x63_S32768x32_0_31 : S32768x63.Slices ![0, 31] S32768x32
  bcast_S_S32768x32 : S_.BroadcastsInDim S32768x32 (![] : Fin 0 → Fin S32768x32.rank)
  concatenates_S32768x32_S32768x32_S32768x64_d1 : Shape.Concatenates [S32768x32, S32768x32] S32768x64 1
  dot_S32768x2048_S2048x63_S32768x63_1_0_0_1_n_n_wf : DotDims.WF S32768x2048 S2048x63 S32768x63 [1] [0] [0] [1] [] []
  dot_S32768x64_S64x2048_S32768x2048_1_0_0_1_n_n_wf : DotDims.WF S32768x64 S64x2048 S32768x2048 [1] [0] [0] [1] [] []

variable [Facts₀]

def dot_S32768x2048_S2048x63_S32768x63_1_0_0_1_n_n : DotDims S32768x2048 S2048x63 S32768x63 where
  lhsContracting := [1]
  rhsContracting := [0]
  lhsNonContracting := [0]
  rhsNonContracting := [1]
  lhsBatch := []
  rhsBatch := []
  wf := dot_S32768x2048_S2048x63_S32768x63_1_0_0_1_n_n_wf
def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf

class Facts : Prop extends Facts₀ where

variable [Facts]
-- ==== Proof.LibTreeGate.lean ====
/-
  Binary-tree gating, one level read at an index.

  A row of gate probabilities `g 0, g 1, …` (one per internal node of a complete binary tree, in breadth-first
  order) turns a row of path weights `P 0 … P (h-1)` of the `h` nodes of one depth into the `2h` path weights of
  the next depth: the left children `g (lo + k) · P k` laid first, then the right children `(1 - g (lo + k)) · P k`,
  where `lo` is the breadth-first number of the depth's first node. As array operations on `[n, ·]` arrays this is a
  column slice of the gates, two products, and a concatenation along the columns; `cat_apply` reads that
  concatenation at a row `r` and column `k` as `step` of the row's gates and weights. `rowOf` is a row of an
  `[n, w]` array as a function of the natural column number, so that the levels compose without carrying bounds.
  Everything is generic in the number of rows `n` and the widths.
-/
import Idealize.ShloMosaic.PureOps.Ideal
import Idealize.ShloMosaic.Lib.ValueIdx
import Idealize.ShloMosaic.Lib.Pipeline.Value

noncomputable section

namespace Cert.TreeGate

open Idealize.ShloMosaic Idealize.ShloMosaic.ValueIdx

/-- One level of the tree on one row: `h` path weights `P` become `2h`, the left children first. -/
def step (one : EReal) (h lo : ℕ) (g P : ℕ → EReal) : ℕ → EReal :=
  fun k => if k < h then g (lo + k) * P k else (one - g (lo + (k - h))) * P (k - h)

/-- Row `r` of an `[n, w]` array as a function of the column number (zero past the last column). -/
def rowOf {n w : ℕ} (v : (⟨2, ![n, w]⟩ : Shape).Idx → EReal) (r : Fin n) : ℕ → EReal :=
  fun c => if h : c < w then v (ix2 r ⟨c, h⟩) else 0

theorem rowOf_apply {n w : ℕ} (v : (⟨2, ![n, w]⟩ : Shape).Idx → EReal) (r : Fin n) (c : Fin w) :
    v (ix2 r c) = rowOf v r c.val := by
  unfold rowOf
  rw [dif_pos c.isLt]

/-- Two arrays with the same entries along two rows have the same row functions there. -/
theorem rowOf_congr {n n' w : ℕ} (v : (⟨2, ![n, w]⟩ : Shape).Idx → EReal) (v' : (⟨2, ![n', w]⟩ : Shape).Idx → EReal)
    (r : Fin n) (r' : Fin n') (h : ∀ c : Fin w, v (ix2 r c) = v' (ix2 r' c)) : rowOf v r = rowOf v' r' := by
  funext c
  unfold rowOf
  by_cases hc : c < w
  · rw [dif_pos hc, dif_pos hc]; exact h ⟨c, hc⟩
  · rw [dif_neg hc, dif_neg hc]

/-- The concatenation `[sl · prev | (ones - sl) · prev]` along the columns, read at row `r`, column `k`: one
    level of the tree, for a column slice `sl` that holds the gates `g r (lo + ·)`, weights `prev` that hold
    `P r`, and `ones` constantly `one`. -/
theorem cat_apply {n h h2 lo : ℕ} (one : EReal)
    (sl prev ones : FVec Ideal ⟨2, ![n, h]⟩ .f32)
    (hc : Shape.Concatenates [(⟨2, ![n, h]⟩ : Shape), ⟨2, ![n, h]⟩] ⟨2, ![n, h2]⟩ 1)
    (g P : Fin n → ℕ → EReal)
    (hsl : ∀ (r : Fin n) (k : Fin h), sl (ix2 r k) = g r (lo + k.val))
    (hp : ∀ (r : Fin n) (k : Fin h), prev (ix2 r k) = P r k.val)
    (hone : ∀ i, ones i = one) (hh : h2 = h + h)
    (r : Fin n) (k : Fin h2) :
    concatenate (⟨2, ![n, h2]⟩ : Shape) 1
        [⟨(⟨2, ![n, h]⟩ : Shape), mulf sl prev⟩, ⟨(⟨2, ![n, h]⟩ : Shape), mulf (subf ones sl) prev⟩] hc (ix2 r k)
      = step one h lo (g r) (P r) k.val := by
  unfold step
  by_cases hk : k.val < h
  · rw [if_pos hk]
    refine (concatenate_pair_apply_left (t := ⟨2, ![n, h2]⟩) (s₁ := ⟨2, ![n, h]⟩) (s₂ := ⟨2, ![n, h]⟩) (1 : Fin 2) _ _ hc
      (ix2 r k) (rfl : (2 : ℕ) = 2) (ix2 r ⟨k.val, hk⟩) (fun b => ?_)).trans ?_
    · match b with
      | ⟨0, _⟩ => rfl
      | ⟨1, _⟩ => rfl
    · show sl (ix2 r ⟨k.val, hk⟩) * prev (ix2 r ⟨k.val, hk⟩) = _
      rw [hsl, hp]
  · rw [if_neg hk]
    have hk2 : k.val - h < h := by have := k.isLt; omega
    refine (concatenate_pair_apply_right (t := ⟨2, ![n, h2]⟩) (s₁ := ⟨2, ![n, h]⟩) (s₂ := ⟨2, ![n, h]⟩) (1 : Fin 2) _ _ hc
      (ix2 r k) (rfl : (2 : ℕ) = 2) (rfl : (2 : ℕ) = 2) (ix2 r ⟨k.val - h, hk2⟩) (fun b hb => ?_) ?_).trans ?_
    · match b with
      | ⟨0, _⟩ => rfl
      | ⟨1, _⟩ => exact absurd rfl hb
    · show (k.val - h) + h = k.val
      omega
    · show (ones (ix2 r ⟨k.val - h, hk2⟩) - sl (ix2 r ⟨k.val - h, hk2⟩)) * prev (ix2 r ⟨k.val - h, hk2⟩) = _
      rw [hone, hsl, hp]

/-- A slice of `h` columns from column `lo` on, read at row `r`, column `k`: the row's entry `lo + k`. -/
theorem slice_apply {n w h lo : ℕ} (v : (⟨2, ![n, w]⟩ : Shape).Idx → EReal)
    (hs : (⟨2, ![n, w]⟩ : Shape).Slices ![0, lo] ⟨2, ![n, h]⟩) (r : Fin n) (k : Fin h) :
    extractStridedSlice (⟨2, ![n, h]⟩ : Shape) ![0, lo] v hs (ix2 r k) = rowOf v r (lo + k.val) := by
  have hlo : lo + h ≤ w := hs.2 1
  have hk : lo + k.val < w := by have := k.isLt; omega
  refine (extractStridedSlice_apply ![0, lo] v hs (ix2 r k) (ix2 r ⟨lo + k.val, hk⟩) (fun a => ?_)).trans
    (rowOf_apply v r ⟨lo + k.val, hk⟩)
  match a with
  | ⟨0, _⟩ => show r.val = 0 + r.val; omega
  | ⟨1, _⟩ => rfl

/-- One level of the tree as an operation on arrays: from the gates `[n, 63]` and the weights `prev : [n, h]` of
    one depth, the weights `[n, 2h]` of the next. Stated for any float values; read at an index below at the exact ones. -/
def levelVec {F : FTy → Type} [FloatOps F] {n h h2 : ℕ} (lo : ℕ) (gate : FVec F ⟨2, ![n, 63]⟩ .f32)
    (prev ones : FVec F ⟨2, ![n, h]⟩ .f32)
    (hs : (⟨2, ![n, 63]⟩ : Shape).Slices ![0, lo] ⟨2, ![n, h]⟩)
    (hc : Shape.Concatenates [(⟨2, ![n, h]⟩ : Shape), ⟨2, ![n, h]⟩] ⟨2, ![n, h2]⟩ 1) : FVec F ⟨2, ![n, h2]⟩ .f32 :=
  concatenate (⟨2, ![n, h2]⟩ : Shape) 1
    [⟨(⟨2, ![n, h]⟩ : Shape), mulf (extractStridedSlice (⟨2, ![n, h]⟩ : Shape) ![0, lo] gate hs) prev⟩,
     ⟨(⟨2, ![n, h]⟩ : Shape), mulf (subf ones (extractStridedSlice (⟨2, ![n, h]⟩ : Shape) ![0, lo] gate hs)) prev⟩] hc

/-- That operation read at row `r`, column `k`: `step` of the row's gates and of the row's previous weights. -/
theorem levelVec_apply {n h h2 : ℕ} (one : EReal) (lo : ℕ) (gate : FVec Ideal ⟨2, ![n, 63]⟩ .f32)
    (prev ones : FVec Ideal ⟨2, ![n, h]⟩ .f32)
    (hs : (⟨2, ![n, 63]⟩ : Shape).Slices ![0, lo] ⟨2, ![n, h]⟩)
    (hc : Shape.Concatenates [(⟨2, ![n, h]⟩ : Shape), ⟨2, ![n, h]⟩] ⟨2, ![n, h2]⟩ 1)
    (P : Fin n → ℕ → EReal) (hp : ∀ (r : Fin n) (k : Fin h), prev (ix2 r k) = P r k.val)
    (hone : ∀ i, ones i = one) (hh : h2 = h + h) (r : Fin n) (k : Fin h2) :
    levelVec lo gate prev ones hs hc (ix2 r k) = step one h lo (rowOf gate r) (P r) k.val :=
  cat_apply one _ prev ones hc (rowOf gate) P (slice_apply gate hs) hp hone hh r k

/-- The six levels of a depth-7 tree on one row of 63 gates: the 64 leaf weights. -/
def leaves (one : EReal) (g : ℕ → EReal) : ℕ → EReal :=
  step one 32 31 g (step one 16 15 g (step one 8 7 g (step one 4 3 g (step one 2 1 g (step one 1 0 g fun _ => one)))))

/-- The six levels as operations on arrays, from the gates `[n, 63]`, the root's weight `p0` and one array of
    ones per width. -/
def leavesVec {F : FTy → Type} [FloatOps F] {n : ℕ} (gate : FVec F ⟨2, ![n, 63]⟩ .f32) (p0 o1 : FVec F ⟨2, ![n, 1]⟩ .f32)
    (o2 : FVec F ⟨2, ![n, 2]⟩ .f32) (o4 : FVec F ⟨2, ![n, 4]⟩ .f32) (o8 : FVec F ⟨2, ![n, 8]⟩ .f32)
    (o16 : FVec F ⟨2, ![n, 16]⟩ .f32) (o32 : FVec F ⟨2, ![n, 32]⟩ .f32)
    (hs1 : (⟨2, ![n, 63]⟩ : Shape).Slices ![0, 0] ⟨2, ![n, 1]⟩) (hs2 : (⟨2, ![n, 63]⟩ : Shape).Slices ![0, 1] ⟨2, ![n, 2]⟩)
    (hs4 : (⟨2, ![n, 63]⟩ : Shape).Slices ![0, 3] ⟨2, ![n, 4]⟩) (hs8 : (⟨2, ![n, 63]⟩ : Shape).Slices ![0, 7] ⟨2, ![n, 8]⟩)
    (hs16 : (⟨2, ![n, 63]⟩ : Shape).Slices ![0, 15] ⟨2, ![n, 16]⟩)
    (hs32 : (⟨2, ![n, 63]⟩ : Shape).Slices ![0, 31] ⟨2, ![n, 32]⟩)
    (hc1 : Shape.Concatenates [(⟨2, ![n, 1]⟩ : Shape), ⟨2, ![n, 1]⟩] ⟨2, ![n, 2]⟩ 1)
    (hc2 : Shape.Concatenates [(⟨2, ![n, 2]⟩ : Shape), ⟨2, ![n, 2]⟩] ⟨2, ![n, 4]⟩ 1)
    (hc4 : Shape.Concatenates [(⟨2, ![n, 4]⟩ : Shape), ⟨2, ![n, 4]⟩] ⟨2, ![n, 8]⟩ 1)
    (hc8 : Shape.Concatenates [(⟨2, ![n, 8]⟩ : Shape), ⟨2, ![n, 8]⟩] ⟨2, ![n, 16]⟩ 1)
    (hc16 : Shape.Concatenates [(⟨2, ![n, 16]⟩ : Shape), ⟨2, ![n, 16]⟩] ⟨2, ![n, 32]⟩ 1)
    (hc32 : Shape.Concatenates [(⟨2, ![n, 32]⟩ : Shape), ⟨2, ![n, 32]⟩] ⟨2, ![n, 64]⟩ 1) :
    FVec F ⟨2, ![n, 64]⟩ .f32 :=
  levelVec 31 gate (levelVec 15 gate (levelVec 7 gate (levelVec 3 gate (levelVec 1 gate
    (levelVec 0 gate p0 o1 hs1 hc1) o2 hs2 hc2) o4 hs4 hc4) o8 hs8 hc8) o16 hs16 hc16) o32 hs32 hc32

/-- Read at row `r`, column `k`, those arrays hold the row's leaf weights, when the root's weight and the arrays of
    ones all hold `one`. -/
theorem leavesVec_apply {n : ℕ} (one : EReal) (gate : FVec Ideal ⟨2, ![n, 63]⟩ .f32) (p0 o1 : FVec Ideal ⟨2, ![n, 1]⟩ .f32)
    (o2 : FVec Ideal ⟨2, ![n, 2]⟩ .f32) (o4 : FVec Ideal ⟨2, ![n, 4]⟩ .f32) (o8 : FVec Ideal ⟨2, ![n, 8]⟩ .f32)
    (o16 : FVec Ideal ⟨2, ![n, 16]⟩ .f32) (o32 : FVec Ideal ⟨2, ![n, 32]⟩ .f32)
    (hs1 : (⟨2, ![n, 63]⟩ : Shape).Slices ![0, 0] ⟨2, ![n, 1]⟩) (hs2 : (⟨2, ![n, 63]⟩ : Shape).Slices ![0, 1] ⟨2, ![n, 2]⟩)
    (hs4 : (⟨2, ![n, 63]⟩ : Shape).Slices ![0, 3] ⟨2, ![n, 4]⟩) (hs8 : (⟨2, ![n, 63]⟩ : Shape).Slices ![0, 7] ⟨2, ![n, 8]⟩)
    (hs16 : (⟨2, ![n, 63]⟩ : Shape).Slices ![0, 15] ⟨2, ![n, 16]⟩)
    (hs32 : (⟨2, ![n, 63]⟩ : Shape).Slices ![0, 31] ⟨2, ![n, 32]⟩)
    (hc1 : Shape.Concatenates [(⟨2, ![n, 1]⟩ : Shape), ⟨2, ![n, 1]⟩] ⟨2, ![n, 2]⟩ 1)
    (hc2 : Shape.Concatenates [(⟨2, ![n, 2]⟩ : Shape), ⟨2, ![n, 2]⟩] ⟨2, ![n, 4]⟩ 1)
    (hc4 : Shape.Concatenates [(⟨2, ![n, 4]⟩ : Shape), ⟨2, ![n, 4]⟩] ⟨2, ![n, 8]⟩ 1)
    (hc8 : Shape.Concatenates [(⟨2, ![n, 8]⟩ : Shape), ⟨2, ![n, 8]⟩] ⟨2, ![n, 16]⟩ 1)
    (hc16 : Shape.Concatenates [(⟨2, ![n, 16]⟩ : Shape), ⟨2, ![n, 16]⟩] ⟨2, ![n, 32]⟩ 1)
    (hc32 : Shape.Concatenates [(⟨2, ![n, 32]⟩ : Shape), ⟨2, ![n, 32]⟩] ⟨2, ![n, 64]⟩ 1)
    (hp0 : ∀ i, p0 i = one) (ho1 : ∀ i, o1 i = one) (ho2 : ∀ i, o2 i = one) (ho4 : ∀ i, o4 i = one)
    (ho8 : ∀ i, o8 i = one) (ho16 : ∀ i, o16 i = one) (ho32 : ∀ i, o32 i = one) (r : Fin n) (k : Fin 64) :
    leavesVec gate p0 o1 o2 o4 o8 o16 o32 hs1 hs2 hs4 hs8 hs16 hs32 hc1 hc2 hc4 hc8 hc16 hc32 (ix2 r k)
      = leaves one (rowOf gate r) k.val := by
  unfold leavesVec leaves
  exact levelVec_apply one 31 gate _ o32 hs32 hc32 _ (fun r k =>
    levelVec_apply one 15 gate _ o16 hs16 hc16 _ (fun r k =>
      levelVec_apply one 7 gate _ o8 hs8 hc8 _ (fun r k =>
        levelVec_apply one 3 gate _ o4 hs4 hc4 _ (fun r k =>
          levelVec_apply one 1 gate _ o2 hs2 hc2 _ (fun r k =>
            levelVec_apply one 0 gate p0 o1 hs1 hc1 (fun _ _ => one) (fun r k => hp0 _) ho1 rfl r k)
            ho2 rfl r k) ho4 rfl r k) ho8 rfl r k) ho16 rfl r k) ho32 rfl r k

end Cert.TreeGate

end
-- ==== Proof.Spec.lean ====
/-
  The result both programs compute, as one function of the four argument arrays, entry by entry.

  Row `R` of `x` gives 63 gate probabilities, one per internal node `c` of a depth-7 binary tree,
  `σ(∑_d x[R,d] · w[d,c] + b[c])` with `σ` the logistic function; walking the tree from the root multiplies, level by
  level, a left child's weight by its parent's gate and a right child's by one minus it (`TreeGate.leaves`), which
  leaves 64 leaf weights; entry `(R, j)` of the result is `∑_k leaf_k · responses[k, j]`.
-/
import proofs.«129262_j43379169690208_2_alg».proof.Proof.LibTreeGate

noncomputable section

namespace Cert.Hmoe

open Idealize.ShloMosaic Idealize.ShloMosaic.ValueIdx Cert.TreeGate

/-- The float literal `1.0`, kept as its word: both programs spell it with the same one. -/
abbrev one : EReal := Ideal.ofBits .f32 0x3F800000#32

/-- The gate probabilities of row `R`, by node number (zero past node 62). -/
def gateRow (x : (⟨2, ![32768, 2048]⟩ : Shape).Idx → EReal) (w : (⟨2, ![2048, 63]⟩ : Shape).Idx → EReal)
    (b : (⟨1, ![63]⟩ : Shape).Idx → EReal) (R : Fin 32768) : ℕ → EReal :=
  fun c => if h : c < 63 then
    Ideal.logistic ((∑ d : Fin 2048, x (ix2 R d) * w (ix2 d ⟨c, h⟩)) + b (ix1 ⟨c, h⟩)) else 0

/-- Entry `(R, j)` of the result. -/
def outAt (x : (⟨2, ![32768, 2048]⟩ : Shape).Idx → EReal) (w : (⟨2, ![2048, 63]⟩ : Shape).Idx → EReal)
    (b : (⟨1, ![63]⟩ : Shape).Idx → EReal) (resp : (⟨2, ![64, 2048]⟩ : Shape).Idx → EReal)
    (R : Fin 32768) (j : Fin 2048) : EReal :=
  ∑ k : Fin 64, leaves one (gateRow x w b R) k.val * resp (ix2 k j)

/-- The result array. -/
def spec (x : (⟨2, ![32768, 2048]⟩ : Shape).Idx → EReal) (w : (⟨2, ![2048, 63]⟩ : Shape).Idx → EReal)
    (b : (⟨1, ![63]⟩ : Shape).Idx → EReal) (resp : (⟨2, ![64, 2048]⟩ : Shape).Idx → EReal) :
    (⟨2, ![32768, 2048]⟩ : Shape).Idx → EReal :=
  fun i => outAt x w b resp (i 0) (i 1)

theorem spec_apply (x : (⟨2, ![32768, 2048]⟩ : Shape).Idx → EReal) (w : (⟨2, ![2048, 63]⟩ : Shape).Idx → EReal)
    (b : (⟨1, ![63]⟩ : Shape).Idx → EReal) (resp : (⟨2, ![64, 2048]⟩ : Shape).Idx → EReal) (R : Fin 32768) (j : Fin 2048) :
    spec x w b resp (ix2 R j) = outAt x w b resp R j := rfl

end Cert.Hmoe

end
-- ==== Proof.KernValue.lean ====
/-
  What one grid point computes, entry by entry.

  The body of the kernel takes a block of 512 rows of `x` and the whole of `w`, the bias (as one row) and
  `responses`. Its two matrix products accumulate into zero, so each entry is a plain sum of products over the
  contracted axis; rounding the operands to bf16 changes nothing on the extended reals. Between them the body forms the
  gates (logistic of the first product plus the bias row) and runs the six levels of the tree. So entry `(r, j)` of the
  block it stores is `∑_k leaf_k · responses[k, j]`, the leaves those of the gates of the block's row `r`.
-/
import proofs.«129262_j43379169690208_2_alg».proof.Proof.Gen.KernelIdeal.Skeleton
import proofs.«129262_j43379169690208_2_alg».proof.Proof.Spec
import Idealize.ShloMosaic.PureOps.Ideal.Laws
import Idealize.ShloMosaic.Lib.ValueLayout

noncomputable section

namespace Cert.Hmoe.Kern

open Cert.KernelIdeal Cert.KernelIdeal.Gen
open Idealize.ShloMosaic Idealize.ShloMosaic.ValueIdx Cert.TreeGate Cert.Hmoe

/-! ## The two matrix products read at an entry -/

theorem d1_lhs0 (i : S512x63.Idx) (q : dot_S512x2048_S2048x63_S512x63_1_0_0_1_n_n.contr.Idx) :
    (dot_S512x2048_S2048x63_S512x63_1_0_0_1_n_n.lhsIdx i q 0).val = (i 0).val := by
  unfold DotDims.lhsIdx
  rw [dif_neg (show ¬(0 : Fin S512x2048.rank) ∈ dot_S512x2048_S2048x63_S512x63_1_0_0_1_n_n.lhsBatch by decide),
    dif_pos (show (0 : Fin S512x2048.rank) ∈ dot_S512x2048_S2048x63_S512x63_1_0_0_1_n_n.lhsNonContracting by decide)]
  rfl
theorem d1_lhs1 (i : S512x63.Idx) (q : dot_S512x2048_S2048x63_S512x63_1_0_0_1_n_n.contr.Idx) :
    (dot_S512x2048_S2048x63_S512x63_1_0_0_1_n_n.lhsIdx i q 1).val = (q ⟨0, by decide⟩).val :=
  dot_S512x2048_S2048x63_S512x63_1_0_0_1_n_n.lhsIdx_val_of_single rfl i q
theorem d1_rhs0 (i : S512x63.Idx) (q : dot_S512x2048_S2048x63_S512x63_1_0_0_1_n_n.contr.Idx) :
    (dot_S512x2048_S2048x63_S512x63_1_0_0_1_n_n.rhsIdx i q 0).val = (q ⟨0, by decide⟩).val :=
  dot_S512x2048_S2048x63_S512x63_1_0_0_1_n_n.rhsIdx_val_of_single rfl i q
theorem d1_rhs1 (i : S512x63.Idx) (q : dot_S512x2048_S2048x63_S512x63_1_0_0_1_n_n.contr.Idx) :
    (dot_S512x2048_S2048x63_S512x63_1_0_0_1_n_n.rhsIdx i q 1).val = (i 1).val := by
  unfold DotDims.rhsIdx
  rw [dif_neg (show ¬(1 : Fin S2048x63.rank) ∈ dot_S512x2048_S2048x63_S512x63_1_0_0_1_n_n.rhsBatch by decide),
    dif_pos (show (1 : Fin S2048x63.rank) ∈ dot_S512x2048_S2048x63_S512x63_1_0_0_1_n_n.rhsNonContracting by decide)]
  rfl

/-- The first product, rows of the block of `x` against columns of `w`: entry `(r, c)` is the sum over the 2048 features. -/
theorem mm1_apply (lhs : FVec Ideal S512x2048 .bf16) (rhs : FVec Ideal S2048x63 .bf16) (r : Fin 512) (c : Fin 63) :
    matmul dot_S512x2048_S2048x63_S512x63_1_0_0_1_n_n none lhs rhs (constant (F := Ideal) S512x63 .f32 0x00000000#32) (ix2 r c)
      = ∑ k : Fin 2048, lhs (ix2 r k) * rhs (ix2 k c) := by
  simp only [matmul]
  rw [Ideal.matmul_constant_zero_apply, ← Equiv.sum_comp (contrEquiv1 dot_S512x2048_S2048x63_S512x63_1_0_0_1_n_n 2048 rfl rfl).symm]
  refine Finset.sum_congr rfl fun k _ => ?_
  have hk := contrEquiv1_symm_val dot_S512x2048_S2048x63_S512x63_1_0_0_1_n_n 2048 rfl rfl k
  have el : dot_S512x2048_S2048x63_S512x63_1_0_0_1_n_n.lhsIdx (ix2 r c) ((contrEquiv1 dot_S512x2048_S2048x63_S512x63_1_0_0_1_n_n 2048 rfl rfl).symm k) = ix2 r k :=
    funext fun a => Fin.ext (by
      match a with
      | ⟨0, _⟩ => exact d1_lhs0 _ _
      | ⟨1, _⟩ => exact (d1_lhs1 _ _).trans hk)
  have er : dot_S512x2048_S2048x63_S512x63_1_0_0_1_n_n.rhsIdx (ix2 r c) ((contrEquiv1 dot_S512x2048_S2048x63_S512x63_1_0_0_1_n_n 2048 rfl rfl).symm k) = ix2 k c :=
    funext fun a => Fin.ext (by
      match a with
      | ⟨0, _⟩ => exact (d1_rhs0 _ _).trans hk
      | ⟨1, _⟩ => exact d1_rhs1 _ _)
  rw [el, er]

theorem d2_lhs0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem d2_lhs1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem d2_rhs0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem d2_rhs1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The second product, leaf weights against `responses`: entry `(r, j)` is the sum over the 64 leaves. -/
theorem mm2_apply (lhs : FVec Ideal S512x64 .bf16) (rhs : FVec Ideal S64x2048 .bf16) (r : Fin 512) (c : Fin 2048) :
    matmul dot_S512x64_S64x2048_S512x2048_1_0_0_1_n_n none lhs rhs (constant (F := Ideal) S512x2048 .f32 0x00000000#32) (ix2 r c)
      = ∑ k : Fin 64, lhs (ix2 r k) * rhs (ix2 k c) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r c) ((contrEquiv1 dot_S512x64_S64x2048_S512x2048_1_0_0_1_n_n 64 rfl rfl).symm k) = ix2 r k :=
    funext fun a => Fin.ext (by
      match a with
      | ⟨0, _⟩ => exact d2_lhs0 _ _
      | ⟨1, _⟩ => exact (d2_lhs1 _ _).trans hk)
  have er : dot_S512x64_S64x2048_S512x2048_1_0_0_1_n_n.rhsIdx (ix2 r c) ((contrEquiv1 dot_S512x64_S64x2048_S512x2048_1_0_0_1_n_n 64 rfl rfl).symm k) = ix2 k c :=
    funext fun a => Fin.ext (by
      match a with
      | ⟨0, _⟩ => exact (d2_rhs0 _ _).trans hk
      | ⟨1, _⟩ => exact d2_rhs1 _ _)
  rw [el, er]

/-! ## The gates -/

/-- The body's gate array: the logistic function of the first product plus the bias row laid along every row. -/
theorem pay2_eq (x0 : Vec Ideal S512x2048 .f32) (x1 : Vec Ideal S2048x63 .f32) (x2 : Vec Ideal S1x63 .f32) :
    k0_pay2 x0 x1 x2
      = logistic (addf (matmul dot_S512x2048_S2048x63_S512x63_1_0_0_1_n_n none (truncf .bf16 x0 bitsLt_bf16_f32) (truncf .bf16 x1 bitsLt_bf16_f32)
            (constant (F := Ideal) S512x63 .f32 0x00000000#32))
          (broadcastTo S512x63 (shapeCast S1x63 x2 shapeCasts_S1x63_S1x63) broadcasts_S1x63_S512x63)) := rfl

/-- At row `r`, node `c`: the logistic function of `∑_d x0[r,d] · x1[d,c] + x2[0,c]`. -/
theorem pay2_apply (x0 : Vec Ideal S512x2048 .f32) (x1 : Vec Ideal S2048x63 .f32) (x2 : Vec Ideal S1x63 .f32)
    (r : Fin 512) (c : Fin 63) :
    k0_pay2 x0 x1 x2 (ix2 r c)
      = Ideal.logistic ((∑ d : Fin 2048, x0 (ix2 r d) * x1 (ix2 d c)) + x2 (ix2 (0 : Fin 1) c)) := by
  rw [pay2_eq]
  show Ideal.logistic (matmul dot_S512x2048_S2048x63_S512x63_1_0_0_1_n_n none (truncf .bf16 x0 bitsLt_bf16_f32) (truncf .bf16 x1 bitsLt_bf16_f32)
      (constant (F := Ideal) S512x63 .f32 0x00000000#32) (ix2 r c)
    + broadcastTo S512x63 (shapeCast S1x63 x2 shapeCasts_S1x63_S1x63) broadcasts_S1x63_S512x63 (ix2 r c)) = _
  rw [mm1_apply, shapeCast_self, broadcastTo_1b_ab_apply]
  rfl

/-! ## The stored block -/

/-- The value the body stores: the second product of the six tree levels on the gate array with `responses`. -/
theorem pay1_eq (x0 : Vec Ideal S512x2048 .f32) (x1 : Vec Ideal S2048x63 .f32) (x2 : Vec Ideal S1x63 .f32)
    (x3 : Vec Ideal S64x2048 .f32) :
    k0_pay1 x3 (k0_pay3 x0 x1 x2) (k0_pay4 x0 x1 x2) (k0_pay5 x0 x1 x2)
      = matmul dot_S512x64_S64x2048_S512x2048_1_0_0_1_n_n none
          (truncf .bf16 (leavesVec (k0_pay2 x0 x1 x2)
            (broadcast S512x1 (Scalar.ofBits .f32 0x3F800000#32)) (broadcast S512x1 (Scalar.ofBits .f32 0x3F800000#32))
            (broadcast S512x2 (Scalar.ofBits .f32 0x3F800000#32)) (broadcast S512x4 (Scalar.ofBits .f32 0x3F800000#32))
            (broadcast S512x8 (Scalar.ofBits .f32 0x3F800000#32)) (broadcast S512x16 (Scalar.ofBits .f32 0x3F800000#32))
            (broadcast S512x32 (Scalar.ofBits .f32 0x3F800000#32))
            slices_S512x63_o0_0_S512x1 slices_S512x63_o0_1_S512x2 slices_S512x63_o0_3_S512x4
            slices_S512x63_o0_7_S512x8 slices_S512x63_o0_15_S512x16 slices_S512x63_o0_31_S512x32
            concatenates_S512x1_S512x1_S512x2_d1 concatenates_S512x2_S512x2_S512x4_d1
            concatenates_S512x4_S512x4_S512x8_d1 concatenates_S512x8_S512x8_S512x16_d1
            concatenates_S512x16_S512x16_S512x32_d1 concatenates_S512x32_S512x32_S512x64_d1) bitsLt_bf16_f32)
          (truncf .bf16 x3 bitsLt_bf16_f32) (constant (F := Ideal) S512x2048 .f32 0x00000000#32) := rfl

/-- Entry `(r, j)` of the stored block: the leaf weights of row `r`'s gates against column `j` of `responses`. -/
theorem pay1_apply (x0 : Vec Ideal S512x2048 .f32) (x1 : Vec Ideal S2048x63 .f32) (x2 : Vec Ideal S1x63 .f32)
    (x3 : Vec Ideal S64x2048 .f32) (r : Fin 512) (j : Fin 2048) :
    k0_pay1 x3 (k0_pay3 x0 x1 x2) (k0_pay4 x0 x1 x2) (k0_pay5 x0 x1 x2) (ix2 r j)
      = ∑ k : Fin 64, leaves one (rowOf (k0_pay2 x0 x1 x2) r) k.val * x3 (ix2 k j) := by
  rw [pay1_eq, mm2_apply]
  refine Finset.sum_congr rfl fun k _ => ?_
  rw [truncf_apply, truncf_apply, leavesVec_apply one] <;> intro i <;> rfl

/-! ## One grid point against the specification -/

/-- The block stored at grid point `t` is rows `512 t … 512 t + 511` of the specification: for input blocks `x0 … x3`
    that hold those rows of `X0`, the whole of `X1` and `X3`, and the bias `B` as one row. -/
theorem point_eq (t : ℕ) (ht : t < 64)
    (x0 : Vec Ideal S512x2048 .f32) (x1 : Vec Ideal S2048x63 .f32) (x2 : Vec Ideal S1x63 .f32) (x3 : Vec Ideal S64x2048 .f32)
    (X0 : S32768x2048.Idx → EReal) (X1 : S2048x63.Idx → EReal) (B : S63.Idx → EReal) (X3 : S64x2048.Idx → EReal)
    (h0 : ∀ (r : Fin 512) (d : Fin 2048), x0 (ix2 r d) = X0 (ix2 (⟨512 * t + r.val, by omega⟩ : Fin 32768) d))
    (h1 : ∀ (d : Fin 2048) (c : Fin 63), x1 (ix2 d c) = X1 (ix2 d c))
    (h2 : ∀ c : Fin 63, x2 (ix2 (0 : Fin 1) c) = B (ix1 c))
    (h3 : ∀ (k : Fin 64) (j : Fin 2048), x3 (ix2 k j) = X3 (ix2 k j))
    (r : Fin 512) (j : Fin 2048) :
    k0_pay1 x3 (k0_pay3 x0 x1 x2) (k0_pay4 x0 x1 x2) (k0_pay5 x0 x1 x2) (ix2 r j)
      = spec X0 X1 B X3 (ix2 (⟨512 * t + r.val, by omega⟩ : Fin 32768) j) := by
  rw [pay1_apply, spec_apply]
  unfold outAt
  have hg : rowOf (k0_pay2 x0 x1 x2) r = gateRow X0 X1 B ⟨512 * t + r.val, by omega⟩ := by
    funext c
    unfold rowOf gateRow
    by_cases hc : c < 63
    · rw [dif_pos hc, dif_pos hc, pay2_apply, h2]
      simp only [h0, h1]
    · rw [dif_neg hc, dif_neg hc]
  rw [hg]
  exact Finset.sum_congr rfl fun k _ => by rw [h3]

end Cert.Hmoe.Kern

end
-- ==== Proof.KernBlocks.lean ====
/-
  From the grid points' blocks to the whole result array.

  The grid has 64 points; point `t` reads rows `512 t … 512 t + 511` of `x` (all 2048 columns), the whole of `w`,
  of the bias row and of `responses`, and writes back rows `512 t … 512 t + 511` of the result. The bias row the
  region finds is the host's reshape of `b` from `[63]` to `[1, 63]`. What a point writes back is the matching
  block of `Hmoe.spec` (`KernValue.point_eq`), the 64 blocks tile the result (row `R` lies in the block of point
  `R / 512`), so the result array ends holding `Hmoe.spec` of the four arguments.
-/
import proofs.«129262_j43379169690208_2_alg».proof.Proof.Gen.KernelIdeal.Value
import proofs.«129262_j43379169690208_2_alg».proof.Proof.KernValue
import Idealize.ShloMosaic.Lib.Pipeline.Value
import Idealize.ShloMosaic.Lib.StableHlo.Run
import Idealize.ShloMosaic.Lib.ValueLayout

noncomputable section

namespace Cert.Hmoe.Blocks

open Cert.KernelIdeal Cert.KernelIdeal.Gen Cert.KernelIdeal.Value
open Idealize.ShloMosaic Idealize.ShloMosaic.TcCoe Idealize.SL.Sem Idealize.ShloMosaic.ValueIdx
open Idealize.ShloMosaic.StableHlo
open Idealize.ShloMosaic.Pipeline (Dat)
open Cert.TreeGate Cert.Hmoe

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the block of `x` and the block of the result move with the point along the rows;
    every other window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The bias row as the region finds it: the host's reshape of `b`. -/
theorem V_bias (c : Dev nD) :
    (V m c main_v0 : S1x63.Idx → EReal)
      = shapeCast S1x63 (m ((c : Thread nD τ).loc main_arg2)) shapeCasts_S63_S1x63 := by
  dsimp only [Gen.V, Gen.hostOps0]
  after_results
  rfl

/-! ## The input blocks at a point -/

/-- The block of `x` at point `t`: rows `512 t + r`. -/
theorem blk0 (c : Dev nD) (t : Fin cfg0.N) (ht : t.val < 64) (r : Fin 512) (d : Fin 2048) :
    (iblk m c 0 t : Vec Ideal S512x2048 .f32) (ix2 r d)
      = (V m c main_arg0 : S32768x2048.Idx → EReal) (ix2 (⟨512 * t.val + r.val, by omega⟩ : Fin 32768) d) := by
  obtain ⟨e0, e1, -⟩ := idx_facts t
  show V m c main_arg0 (((cfg0.win 0).blk t).view.emb (ix2 r d)) = _
  refine congrArg (V m c main_arg0) (funext fun a => Fin.ext ?_)
  match a with
  | ⟨0, _⟩ => show win0_0.index t (0 : Fin 2) * 512 + 1 * r.val = 512 * t.val + r.val; rw [e0]; omega
  | ⟨1, _⟩ => show win0_0.index t (1 : Fin 2) * 2048 + 1 * d.val = d.val; rw [e1]; omega

/-- The block of `w` at any point is the whole of `w`. -/
theorem blk1 (c : Dev nD) (t : Fin cfg0.N) (d : Fin 2048) (k : Fin 63) :
    (iblk m c 1 t : Vec Ideal S2048x63 .f32) (ix2 d k) = (V m c main_arg1 : S2048x63.Idx → EReal) (ix2 d k) := by
  obtain ⟨-, -, e0, e1, -⟩ := idx_facts t
  show V m c main_arg1 (((cfg0.win 1).blk t).view.emb (ix2 d k)) = _
  refine congrArg (V m c main_arg1) (funext fun a => Fin.ext ?_)
  match a with
  | ⟨0, _⟩ => show win0_1.index t (0 : Fin 2) * 2048 + 1 * d.val = d.val; rw [e0]; omega
  | ⟨1, _⟩ => show win0_1.index t (1 : Fin 2) * 63 + 1 * k.val = k.val; rw [e1]; omega

/-- The block of the bias row at any point is the bias, entry by entry. -/
theorem blk2 (c : Dev nD) (t : Fin cfg0.N) (k : Fin 63) :
    (iblk m c 2 t : Vec Ideal S1x63 .f32) (ix2 (0 : Fin 1) k)
      = (m ((c : Thread nD τ).loc main_arg2) : S63.Idx → EReal) (ix1 k) := by
  obtain ⟨-, -, -, -, e0, e1, -⟩ := idx_facts t
  have hb : (iblk m c 2 t : Vec Ideal S1x63 .f32) (ix2 (0 : Fin 1) k)
      = (V m c main_v0 : S1x63.Idx → EReal) (ix2 (0 : Fin 1) k) := by
    show V m c main_v0 (((cfg0.win 2).blk t).view.emb (ix2 (0 : Fin 1) k)) = _
    refine congrArg (V m c main_v0) (funext fun a => Fin.ext ?_)
    match a with
    | ⟨0, _⟩ => show win0_2.index t (0 : Fin 2) * 1 + 1 * 0 = 0; rw [e0]
    | ⟨1, _⟩ => show win0_2.index t (1 : Fin 2) * 63 + 1 * k.val = k.val; rw [e1]; omega
  rw [hb, V_bias]
  exact shapeCast_a_1a_apply _ shapeCasts_S63_S1x63 (0 : Fin 1) k

/-- The block of `responses` at any point is the whole of it. -/
theorem blk3 (c : Dev nD) (t : Fin cfg0.N) (k : Fin 64) (j : Fin 2048) :
    (iblk m c 3 t : Vec Ideal S64x2048 .f32) (ix2 k j) = (V m c main_arg3 : S64x2048.Idx → EReal) (ix2 k j) := by
  obtain ⟨-, -, -, -, -, -, e0, e1, -⟩ := idx_facts t
  show V m c main_arg3 (((cfg0.win 3).blk t).view.emb (ix2 k j)) = _
  refine congrArg (V m c main_arg3) (funext fun a => Fin.ext ?_)
  match a with
  | ⟨0, _⟩ => show win0_3.index t (0 : Fin 2) * 64 + 1 * k.val = k.val; rw [e0]; omega
  | ⟨1, _⟩ => show win0_3.index t (1 : Fin 2) * 2048 + 1 * j.val = j.val; rw [e1]; omega

/-! ## What a point writes back, the cover, the array -/

/-- Point `t` writes back block `t` of the specification of the arrays as the region finds them. -/
theorem flushed_eq (c : Dev nD) (t : Fin cfg0.N) :
    (dats m 0 c).flushed 4 t = ((cfg0.win 4).blk t).view.read (Elt Ideal)
      (spec (V m c main_arg0) (V m c main_arg1) (m ((c : Thread nD τ).loc main_arg2)) (V m c main_arg3)) := by
  have ht : t.val < 64 := by have := t.isLt; have hN : cfg0.N = 64 := N_0; omega
  obtain ⟨-, -, -, -, -, -, -, -, e0, e1⟩ := idx_facts t
  rw [flushed4]
  unfold out0_4
  rw [View.canon_unit_zero hz]
  simp only [View.ld_unit_zero (S := S512x2048) hz, View.ld_unit_zero (S := S2048x63) hz,
    View.ld_unit_zero (S := S1x63) hz, View.ld_unit_zero (S := S64x2048) hz]
  funext y
  obtain ⟨r, j, rfl⟩ : ∃ (r : Fin 512) (j : Fin 2048), y = ix2 r j := ⟨y 0, y 1, eq_ix2 y⟩
  show k0_pay1 (iblk m c 3 t) (k0_pay3 (iblk m c 0 t) (iblk m c 1 t) (iblk m c 2 t))
      (k0_pay4 (iblk m c 0 t) (iblk m c 1 t) (iblk m c 2 t)) (k0_pay5 (iblk m c 0 t) (iblk m c 1 t) (iblk m c 2 t)) (ix2 r j)
    = spec (V m c main_arg0) (V m c main_arg1) (m ((c : Thread nD τ).loc main_arg2)) (V m c main_arg3)
        (((cfg0.win 4).blk t).view.emb (ix2 r j))
  refine (Kern.point_eq t.val ht (iblk m c 0 t) (iblk m c 1 t) (iblk m c 2 t) (iblk m c 3 t)
    (V m c main_arg0) (V m c main_arg1) (m ((c : Thread nD τ).loc main_arg2)) (V m c main_arg3)
    (blk0 m c t ht) (blk1 m c t) (blk2 m c t) (blk3 m c t) r j).trans ?_
  refine congrArg (spec (V m c main_arg0) (V m c main_arg1) (m ((c : Thread nD τ).loc main_arg2)) (V m c main_arg3))
    (funext fun a => Fin.ext ?_)
  match a with
  | ⟨0, _⟩ => show 512 * t.val + r.val = win0_4.index t (0 : Fin 2) * 512 + 1 * r.val; rw [e0]; omega
  | ⟨1, _⟩ => show j.val = win0_4.index t (1 : Fin 2) * 2048 + 1 * j.val; rw [e1]; omega

/-- An index of the result is in point `t`'s block iff each coordinate is in the block's range on its axis. -/
theorem mem_blk (t : Fin cfg0.N) (i : S32768x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v1).slice (win0_4.rect t)).set ↔ _
  rw [View.set_slice_whole, Rect.mem_set_unit]
  exact Iff.rfl

/-- Every index of the result lies in the block of the point its row falls in. -/
theorem cover (i : S32768x2048.Idx) :
    ∃ t : Fin cfg0.N, (cfg0.win 4).flush t = true ∧ i ∈ ((cfg0.win 4).blk t).view.set := by
  have hN : cfg0.N = 64 := N_0
  have hi0 : (i 0).val < 32768 := (i 0).isLt
  have hi1 : (i 1).val < 2048 := (i 1).isLt
  have hq : (i 0).val / 512 < cfg0.N := by omega
  refine ⟨⟨(i 0).val / 512, hq⟩, flush0_4 _, ?_⟩
  obtain ⟨-, -, -, -, -, -, -, -, e0, e1⟩ := idx_facts ⟨(i 0).val / 512, hq⟩
  rw [mem_blk]
  intro a
  match a with
  | ⟨0, _⟩ =>
    show win0_4.index ⟨(i 0).val / 512, hq⟩ (0 : Fin 2) * 512 ≤ (i 0).val
      ∧ (i 0).val < win0_4.index ⟨(i 0).val / 512, hq⟩ (0 : Fin 2) * 512 + 512
    rw [e0]
    show (i 0).val / 512 * 512 ≤ (i 0).val ∧ (i 0).val < (i 0).val / 512 * 512 + 512
    omega
  | ⟨1, _⟩ =>
    show win0_4.index ⟨(i 0).val / 512, hq⟩ (1 : Fin 2) * 2048 ≤ (i 1).val
      ∧ (i 1).val < win0_4.index ⟨(i 0).val / 512, hq⟩ (1 : Fin 2) * 2048 + 2048
    rw [e1]
    omega

/-- The result array after the run is the specification of the four arguments as launched. -/
theorem final (c : Dev nD) :
    (dats m 0 c).arrAt 4 cfg0.N
      = spec (m ((c : Thread nD τ).loc main_arg0)) (m ((c : Thread nD τ).loc main_arg1))
          (m ((c : Thread nD τ).loc main_arg2)) (m ((c : Thread nD τ).loc main_arg3)) := by
  have h := (dats m 0 c).arrAt_eq_of_cover 4
    (spec (V m c main_arg0) (V m c main_arg1) (m ((c : Thread nD τ).loc main_arg2)) (V m c main_arg3))
    (fun t _ => flushed_eq m c t) cover
  rw [V_main_arg0, V_main_arg1, V_main_arg3] at h
  exact h

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1)
        = spec (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Hmoe.Blocks

end
-- ==== Proof.RefOps.lean ====
/- The reference's 57 host operations, in the order the printed program runs them, as one list `ops` and as 8
   consecutive stretches `seg0 … seg7` whose concatenation is `ops`; that the printed `main` is the sequence of
   `ops`, that the signature scopes no buffer or semaphore, and that every operation touches TensorCore buffers only. -/
import proofs.«129262_j43379169690208_2_alg».proof.Proof.Gen.ReferenceIdeal
import Idealize.ShloMosaic.Lib.StableHlo.Run

noncomputable section

namespace Cert.Hmoe.RefOps

open Cert.ReferenceIdeal Cert.ReferenceIdeal.Gen Idealize.ShloMosaic Idealize.ShloMosaic.TcCoe Idealize.SL.Sem
open Idealize.ShloMosaic.StableHlo

variable {F : FTy → Type} [FloatOps F]

/-- Operations 1 to 12. -/
abbrev seg0 : List (HloOp τ sig (Elt F)) :=
  [ StableHlo.binary main_arg0 main_arg1 main_v0 ((fun l r => Host.dotGeneral dot_S32768x2048_S2048x63_S32768x63_1_0_0_1_n_n none l r) : (⟨S32768x2048, .f32⟩ : BufTy).Contents (Elt F) → (⟨S2048x63, .f32⟩ : BufTy).Contents (Elt F) → (⟨S32768x63, .f32⟩ : BufTy).Contents (Elt F)),
    StableHlo.unary main_arg2 main_v1 (broadcastInDim S1x63 ![1] bcast_S63_S1x63_1 : (⟨S63, .f32⟩ : BufTy).Contents (Elt F) → (⟨S1x63, .f32⟩ : BufTy).Contents (Elt F)),
    StableHlo.unary main_v1 main_v2 (broadcastInDim S32768x63 ![0, 1] bcast_S1x63_S32768x63_0_1 : (⟨S1x63, .f32⟩ : BufTy).Contents (Elt F) → (⟨S32768x63, .f32⟩ : BufTy).Contents (Elt F)),
    StableHlo.binary main_v0 main_v2 main_v3 (addf : (⟨S32768x63, .f32⟩ : BufTy).Contents (Elt F) → (⟨S32768x63, .f32⟩ : BufTy).Contents (Elt F) → (⟨S32768x63, .f32⟩ : BufTy).Contents (Elt F)),
    StableHlo.unary main_v3 main_v4 (Host.negf : (⟨S32768x63, .f32⟩ : BufTy).Contents (Elt F) → (⟨S32768x63, .f32⟩ : BufTy).Contents (Elt F)),
    StableHlo.unary main_v4 main_v5 (Host.exp : (⟨S32768x63, .f32⟩ : BufTy).Contents (Elt F) → (⟨S32768x63, .f32⟩ : BufTy).Contents (Elt F)),
    StableHlo.nullary main_cst (constant S_ .f32 0x3F800000#32),
    StableHlo.unary main_cst main_v6 (broadcastInDim S32768x63 ![] bcast_S_S32768x63 : (⟨S_, .f32⟩ : BufTy).Contents (Elt F) → (⟨S32768x63, .f32⟩ : BufTy).Contents (Elt F)),
    StableHlo.binary main_v6 main_v5 main_v7 (addf : (⟨S32768x63, .f32⟩ : BufTy).Contents (Elt F) → (⟨S32768x63, .f32⟩ : BufTy).Contents (Elt F) → (⟨S32768x63, .f32⟩ : BufTy).Contents (Elt F)),
    StableHlo.nullary main_cst_0 (constant S_ .f32 0x3F800000#32),
    StableHlo.unary main_cst_0 main_v8 (broadcastInDim S32768x63 ![] bcast_S_S32768x63 : (⟨S_, .f32⟩ : BufTy).Contents (Elt F) → (⟨S32768x63, .f32⟩ : BufTy).Contents (Elt F)),
    StableHlo.binary main_v8 main_v7 main_v9 (Host.divf : (⟨S32768x63, .f32⟩ : BufTy).Contents (Elt F) → (⟨S32768x63, .f32⟩ : BufTy).Contents (Elt F) → (⟨S32768x63, .f32⟩ : BufTy).Contents (Elt F)) ]

/-- Operations 13 to 21. -/
abbrev seg1 : List (HloOp τ sig (Elt F)) :=
  [ StableHlo.nullary main_cst_1 (constant S_ .f32 0x3F800000#32),
    StableHlo.unary main_cst_1 main_v10 (broadcastInDim S32768x1 ![] bcast_S_S32768x1 : (⟨S_, .f32⟩ : BufTy).Contents (Elt F) → (⟨S32768x1, .f32⟩ : BufTy).Contents (Elt F)),
    StableHlo.unary main_v9 main_v11 ((extractStridedSlice S32768x1 ![0, 0] · slices_S32768x63_S32768x1_0_0) : (⟨S32768x63, .f32⟩ : BufTy).Contents (Elt F) → (⟨S32768x1, .f32⟩ : BufTy).Contents (Elt F)),
    StableHlo.binary main_v11 main_v10 main_v12 (mulf : (⟨S32768x1, .f32⟩ : BufTy).Contents (Elt F) → (⟨S32768x1, .f32⟩ : BufTy).Contents (Elt F) → (⟨S32768x1, .f32⟩ : BufTy).Contents (Elt F)),
    StableHlo.nullary main_cst_2 (constant S_ .f32 0x3F800000#32),
    StableHlo.unary main_cst_2 main_v13 (broadcastInDim S32768x1 ![] bcast_S_S32768x1 : (⟨S_, .f32⟩ : BufTy).Contents (Elt F) → (⟨S32768x1, .f32⟩ : BufTy).Contents (Elt F)),
    StableHlo.binary main_v13 main_v11 main_v14 (subf : (⟨S32768x1, .f32⟩ : BufTy).Contents (Elt F) → (⟨S32768x1, .f32⟩ : BufTy).Contents (Elt F) → (⟨S32768x1, .f32⟩ : BufTy).Contents (Elt F)),
    StableHlo.binary main_v14 main_v10 main_v15 (mulf : (⟨S32768x1, .f32⟩ : BufTy).Contents (Elt F) → (⟨S32768x1, .f32⟩ : BufTy).Contents (Elt F) → (⟨S32768x1, .f32⟩ : BufTy).Contents (Elt F)),
    StableHlo.binary main_v12 main_v15 main_v16 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)) ]

/-- Operations 22 to 28. -/
abbrev seg2 : List (HloOp τ sig (Elt F)) :=
  [ StableHlo.unary main_v9 main_v17 ((extractStridedSlice S32768x2 ![0, 1] · slices_S32768x63_S32768x2_0_1) : (⟨S32768x63, .f32⟩ : BufTy).Contents (Elt F) → (⟨S32768x2, .f32⟩ : BufTy).Contents (Elt F)),
    StableHlo.binary main_v17 main_v16 main_v18 (mulf : (⟨S32768x2, .f32⟩ : BufTy).Contents (Elt F) → (⟨S32768x2, .f32⟩ : BufTy).Contents (Elt F) → (⟨S32768x2, .f32⟩ : BufTy).Contents (Elt F)),
    StableHlo.nullary main_cst_3 (constant S_ .f32 0x3F800000#32),
    StableHlo.unary main_cst_3 main_v19 (broadcastInDim S32768x2 ![] bcast_S_S32768x2 : (⟨S_, .f32⟩ : BufTy).Contents (Elt F) → (⟨S32768x2, .f32⟩ : BufTy).Contents (Elt F)),
    StableHlo.binary main_v19 main_v17 main_v20 (subf : (⟨S32768x2, .f32⟩ : BufTy).Contents (Elt F) → (⟨S32768x2, .f32⟩ : BufTy).Contents (Elt F) → (⟨S32768x2, .f32⟩ : BufTy).Contents (Elt F)),
    StableHlo.binary main_v20 main_v16 main_v21 (mulf : (⟨S32768x2, .f32⟩ : BufTy).Contents (Elt F) → (⟨S32768x2, .f32⟩ : BufTy).Contents (Elt F) → (⟨S32768x2, .f32⟩ : BufTy).Contents (Elt F)),
    StableHlo.binary main_v18 main_v21 main_v22 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)) ]

/-- Operations 29 to 35. -/
abbrev seg3 : List (HloOp τ sig (Elt F)) :=
  [ StableHlo.unary main_v9 main_v23 ((extractStridedSlice S32768x4 ![0, 3] · slices_S32768x63_S32768x4_0_3) : (⟨S32768x63, .f32⟩ : BufTy).Contents (Elt F) → (⟨S32768x4, .f32⟩ : BufTy).Contents (Elt F)),
    StableHlo.binary main_v23 main_v22 main_v24 (mulf : (⟨S32768x4, .f32⟩ : BufTy).Contents (Elt F) → (⟨S32768x4, .f32⟩ : BufTy).Contents (Elt F) → (⟨S32768x4, .f32⟩ : BufTy).Contents (Elt F)),
    StableHlo.nullary main_cst_4 (constant S_ .f32 0x3F800000#32),
    StableHlo.unary main_cst_4 main_v25 (broadcastInDim S32768x4 ![] bcast_S_S32768x4 : (⟨S_, .f32⟩ : BufTy).Contents (Elt F) → (⟨S32768x4, .f32⟩ : BufTy).Contents (Elt F)),
    StableHlo.binary main_v25 main_v23 main_v26 (subf : (⟨S32768x4, .f32⟩ : BufTy).Contents (Elt F) → (⟨S32768x4, .f32⟩ : BufTy).Contents (Elt F) → (⟨S32768x4, .f32⟩ : BufTy).Contents (Elt F)),
    StableHlo.binary main_v26 main_v22 main_v27 (mulf : (⟨S32768x4, .f32⟩ : BufTy).Contents (Elt F) → (⟨S32768x4, .f32⟩ : BufTy).Contents (Elt F) → (⟨S32768x4, .f32⟩ : BufTy).Contents (Elt F)),
    StableHlo.binary main_v24 main_v27 main_v28 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)) ]

/-- Operations 36 to 42. -/
abbrev seg4 : List (HloOp τ sig (Elt F)) :=
  [ StableHlo.unary main_v9 main_v29 ((extractStridedSlice S32768x8 ![0, 7] · slices_S32768x63_S32768x8_0_7) : (⟨S32768x63, .f32⟩ : BufTy).Contents (Elt F) → (⟨S32768x8, .f32⟩ : BufTy).Contents (Elt F)),
    StableHlo.binary main_v29 main_v28 main_v30 (mulf : (⟨S32768x8, .f32⟩ : BufTy).Contents (Elt F) → (⟨S32768x8, .f32⟩ : BufTy).Contents (Elt F) → (⟨S32768x8, .f32⟩ : BufTy).Contents (Elt F)),
    StableHlo.nullary main_cst_5 (constant S_ .f32 0x3F800000#32),
    StableHlo.unary main_cst_5 main_v31 (broadcastInDim S32768x8 ![] bcast_S_S32768x8 : (⟨S_, .f32⟩ : BufTy).Contents (Elt F) → (⟨S32768x8, .f32⟩ : BufTy).Contents (Elt F)),
    StableHlo.binary main_v31 main_v29 main_v32 (subf : (⟨S32768x8, .f32⟩ : BufTy).Contents (Elt F) → (⟨S32768x8, .f32⟩ : BufTy).Contents (Elt F) → (⟨S32768x8, .f32⟩ : BufTy).Contents (Elt F)),
    StableHlo.binary main_v32 main_v28 main_v33 (mulf : (⟨S32768x8, .f32⟩ : BufTy).Contents (Elt F) → (⟨S32768x8, .f32⟩ : BufTy).Contents (Elt F) → (⟨S32768x8, .f32⟩ : BufTy).Contents (Elt F)),
    StableHlo.binary main_v30 main_v33 main_v34 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)) ]

/-- Operations 43 to 49. -/
abbrev seg5 : List (HloOp τ sig (Elt F)) :=
  [ StableHlo.unary main_v9 main_v35 ((extractStridedSlice S32768x16 ![0, 15] · slices_S32768x63_S32768x16_0_15) : (⟨S32768x63, .f32⟩ : BufTy).Contents (Elt F) → (⟨S32768x16, .f32⟩ : BufTy).Contents (Elt F)),
    StableHlo.binary main_v35 main_v34 main_v36 (mulf : (⟨S32768x16, .f32⟩ : BufTy).Contents (Elt F) → (⟨S32768x16, .f32⟩ : BufTy).Contents (Elt F) → (⟨S32768x16, .f32⟩ : BufTy).Contents (Elt F)),
    StableHlo.nullary main_cst_6 (constant S_ .f32 0x3F800000#32),
    StableHlo.unary main_cst_6 main_v37 (broadcastInDim S32768x16 ![] bcast_S_S32768x16 : (⟨S_, .f32⟩ : BufTy).Contents (Elt F) → (⟨S32768x16, .f32⟩ : BufTy).Contents (Elt F)),
    StableHlo.binary main_v37 main_v35 main_v38 (subf : (⟨S32768x16, .f32⟩ : BufTy).Contents (Elt F) → (⟨S32768x16, .f32⟩ : BufTy).Contents (Elt F) → (⟨S32768x16, .f32⟩ : BufTy).Contents (Elt F)),
    StableHlo.binary main_v38 main_v34 main_v39 (mulf : (⟨S32768x16, .f32⟩ : BufTy).Contents (Elt F) → (⟨S32768x16, .f32⟩ : BufTy).Contents (Elt F) → (⟨S32768x16, .f32⟩ : BufTy).Contents (Elt F)),
    StableHlo.binary main_v36 main_v39 main_v40 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)) ]

/-- Operations 50 to 56. -/
abbrev seg6 : List (HloOp τ sig (Elt F)) :=
  [ StableHlo.unary main_v9 main_v41 ((extractStridedSlice S32768x32 ![0, 31] · slices_S32768x63_S32768x32_0_31) : (⟨S32768x63, .f32⟩ : BufTy).Contents (Elt F) → (⟨S32768x32, .f32⟩ : BufTy).Contents (Elt F)),
    StableHlo.binary main_v41 main_v40 main_v42 (mulf : (⟨S32768x32, .f32⟩ : BufTy).Contents (Elt F) → (⟨S32768x32, .f32⟩ : BufTy).Contents (Elt F) → (⟨S32768x32, .f32⟩ : BufTy).Contents (Elt F)),
    StableHlo.nullary main_cst_7 (constant S_ .f32 0x3F800000#32),
    StableHlo.unary main_cst_7 main_v43 (broadcastInDim S32768x32 ![] bcast_S_S32768x32 : (⟨S_, .f32⟩ : BufTy).Contents (Elt F) → (⟨S32768x32, .f32⟩ : BufTy).Contents (Elt F)),
    StableHlo.binary main_v43 main_v41 main_v44 (subf : (⟨S32768x32, .f32⟩ : BufTy).Contents (Elt F) → (⟨S32768x32, .f32⟩ : BufTy).Contents (Elt F) → (⟨S32768x32, .f32⟩ : BufTy).Contents (Elt F)),
    StableHlo.binary main_v44 main_v40 main_v45 (mulf : (⟨S32768x32, .f32⟩ : BufTy).Contents (Elt F) → (⟨S32768x32, .f32⟩ : BufTy).Contents (Elt F) → (⟨S32768x32, .f32⟩ : BufTy).Contents (Elt F)),
    StableHlo.binary main_v42 main_v45 main_v46 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)) ]

/-- Operations 57 to 57. -/
abbrev seg7 : List (HloOp τ sig (Elt F)) :=
  [ StableHlo.binary main_v46 main_arg3 main_v47 ((fun l r => Host.dotGeneral dot_S32768x64_S64x2048_S32768x2048_1_0_0_1_n_n none l r) : (⟨S32768x64, .f32⟩ : BufTy).Contents (Elt F) → (⟨S64x2048, .f32⟩ : BufTy).Contents (Elt F) → (⟨S32768x2048, .f32⟩ : BufTy).Contents (Elt F)) ]

/-- All 57 operations. -/
abbrev ops : List (HloOp τ sig (Elt F)) :=
  [ StableHlo.binary main_arg0 main_arg1 main_v0 ((fun l r => Host.dotGeneral dot_S32768x2048_S2048x63_S32768x63_1_0_0_1_n_n none l r) : (⟨S32768x2048, .f32⟩ : BufTy).Contents (Elt F) → (⟨S2048x63, .f32⟩ : BufTy).Contents (Elt F) → (⟨S32768x63, .f32⟩ : BufTy).Contents (Elt F)),
    StableHlo.unary main_arg2 main_v1 (broadcastInDim S1x63 ![1] bcast_S63_S1x63_1 : (⟨S63, .f32⟩ : BufTy).Contents (Elt F) → (⟨S1x63, .f32⟩ : BufTy).Contents (Elt F)),
    StableHlo.unary main_v1 main_v2 (broadcastInDim S32768x63 ![0, 1] bcast_S1x63_S32768x63_0_1 : (⟨S1x63, .f32⟩ : BufTy).Contents (Elt F) → (⟨S32768x63, .f32⟩ : BufTy).Contents (Elt F)),
    StableHlo.binary main_v0 main_v2 main_v3 (addf : (⟨S32768x63, .f32⟩ : BufTy).Contents (Elt F) → (⟨S32768x63, .f32⟩ : BufTy).Contents (Elt F) → (⟨S32768x63, .f32⟩ : BufTy).Contents (Elt F)),
    StableHlo.unary main_v3 main_v4 (Host.negf : (⟨S32768x63, .f32⟩ : BufTy).Contents (Elt F) → (⟨S32768x63, .f32⟩ : BufTy).Contents (Elt F)),
    StableHlo.unary main_v4 main_v5 (Host.exp : (⟨S32768x63, .f32⟩ : BufTy).Contents (Elt F) → (⟨S32768x63, .f32⟩ : BufTy).Contents (Elt F)),
    StableHlo.nullary main_cst (constant S_ .f32 0x3F800000#32),
    StableHlo.unary main_cst main_v6 (broadcastInDim S32768x63 ![] bcast_S_S32768x63 : (⟨S_, .f32⟩ : BufTy).Contents (Elt F) → (⟨S32768x63, .f32⟩ : BufTy).Contents (Elt F)),
    StableHlo.binary main_v6 main_v5 main_v7 (addf : (⟨S32768x63, .f32⟩ : BufTy).Contents (Elt F) → (⟨S32768x63, .f32⟩ : BufTy).Contents (Elt F) → (⟨S32768x63, .f32⟩ : BufTy).Contents (Elt F)),
    StableHlo.nullary main_cst_0 (constant S_ .f32 0x3F800000#32),
    StableHlo.unary main_cst_0 main_v8 (broadcastInDim S32768x63 ![] bcast_S_S32768x63 : (⟨S_, .f32⟩ : BufTy).Contents (Elt F) → (⟨S32768x63, .f32⟩ : BufTy).Contents (Elt F)),
    StableHlo.binary main_v8 main_v7 main_v9 (Host.divf : (⟨S32768x63, .f32⟩ : BufTy).Contents (Elt F) → (⟨S32768x63, .f32⟩ : BufTy).Contents (Elt F) → (⟨S32768x63, .f32⟩ : BufTy).Contents (Elt F)),
    StableHlo.nullary main_cst_1 (constant S_ .f32 0x3F800000#32),
    StableHlo.unary main_cst_1 main_v10 (broadcastInDim S32768x1 ![] bcast_S_S32768x1 : (⟨S_, .f32⟩ : BufTy).Contents (Elt F) → (⟨S32768x1, .f32⟩ : BufTy).Contents (Elt F)),
    StableHlo.unary main_v9 main_v11 ((extractStridedSlice S32768x1 ![0, 0] · slices_S32768x63_S32768x1_0_0) : (⟨S32768x63, .f32⟩ : BufTy).Contents (Elt F) → (⟨S32768x1, .f32⟩ : BufTy).Contents (Elt F)),
    StableHlo.binary main_v11 main_v10 main_v12 (mulf : (⟨S32768x1, .f32⟩ : BufTy).Contents (Elt F) → (⟨S32768x1, .f32⟩ : BufTy).Contents (Elt F) → (⟨S32768x1, .f32⟩ : BufTy).Contents (Elt F)),
    StableHlo.nullary main_cst_2 (constant S_ .f32 0x3F800000#32),
    StableHlo.unary main_cst_2 main_v13 (broadcastInDim S32768x1 ![] bcast_S_S32768x1 : (⟨S_, .f32⟩ : BufTy).Contents (Elt F) → (⟨S32768x1, .f32⟩ : BufTy).Contents (Elt F)),
    StableHlo.binary main_v13 main_v11 main_v14 (subf : (⟨S32768x1, .f32⟩ : BufTy).Contents (Elt F) → (⟨S32768x1, .f32⟩ : BufTy).Contents (Elt F) → (⟨S32768x1, .f32⟩ : BufTy).Contents (Elt F)),
    StableHlo.binary main_v14 main_v10 main_v15 (mulf : (⟨S32768x1, .f32⟩ : BufTy).Contents (Elt F) → (⟨S32768x1, .f32⟩ : BufTy).Contents (Elt F) → (⟨S32768x1, .f32⟩ : BufTy).Contents (Elt F)),
    StableHlo.binary main_v12 main_v15 main_v16 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.unary main_v9 main_v17 ((extractStridedSlice S32768x2 ![0, 1] · slices_S32768x63_S32768x2_0_1) : (⟨S32768x63, .f32⟩ : BufTy).Contents (Elt F) → (⟨S32768x2, .f32⟩ : BufTy).Contents (Elt F)),
    StableHlo.binary main_v17 main_v16 main_v18 (mulf : (⟨S32768x2, .f32⟩ : BufTy).Contents (Elt F) → (⟨S32768x2, .f32⟩ : BufTy).Contents (Elt F) → (⟨S32768x2, .f32⟩ : BufTy).Contents (Elt F)),
    StableHlo.nullary main_cst_3 (constant S_ .f32 0x3F800000#32),
    StableHlo.unary main_cst_3 main_v19 (broadcastInDim S32768x2 ![] bcast_S_S32768x2 : (⟨S_, .f32⟩ : BufTy).Contents (Elt F) → (⟨S32768x2, .f32⟩ : BufTy).Contents (Elt F)),
    StableHlo.binary main_v19 main_v17 main_v20 (subf : (⟨S32768x2, .f32⟩ : BufTy).Contents (Elt F) → (⟨S32768x2, .f32⟩ : BufTy).Contents (Elt F) → (⟨S32768x2, .f32⟩ : BufTy).Contents (Elt F)),
    StableHlo.binary main_v20 main_v16 main_v21 (mulf : (⟨S32768x2, .f32⟩ : BufTy).Contents (Elt F) → (⟨S32768x2, .f32⟩ : BufTy).Contents (Elt F) → (⟨S32768x2, .f32⟩ : BufTy).Contents (Elt F)),
    StableHlo.binary main_v18 main_v21 main_v22 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.unary main_v9 main_v23 ((extractStridedSlice S32768x4 ![0, 3] · slices_S32768x63_S32768x4_0_3) : (⟨S32768x63, .f32⟩ : BufTy).Contents (Elt F) → (⟨S32768x4, .f32⟩ : BufTy).Contents (Elt F)),
    StableHlo.binary main_v23 main_v22 main_v24 (mulf : (⟨S32768x4, .f32⟩ : BufTy).Contents (Elt F) → (⟨S32768x4, .f32⟩ : BufTy).Contents (Elt F) → (⟨S32768x4, .f32⟩ : BufTy).Contents (Elt F)),
    StableHlo.nullary main_cst_4 (constant S_ .f32 0x3F800000#32),
    StableHlo.unary main_cst_4 main_v25 (broadcastInDim S32768x4 ![] bcast_S_S32768x4 : (⟨S_, .f32⟩ : BufTy).Contents (Elt F) → (⟨S32768x4, .f32⟩ : BufTy).Contents (Elt F)),
    StableHlo.binary main_v25 main_v23 main_v26 (subf : (⟨S32768x4, .f32⟩ : BufTy).Contents (Elt F) → (⟨S32768x4, .f32⟩ : BufTy).Contents (Elt F) → (⟨S32768x4, .f32⟩ : BufTy).Contents (Elt F)),
    StableHlo.binary main_v26 main_v22 main_v27 (mulf : (⟨S32768x4, .f32⟩ : BufTy).Contents (Elt F) → (⟨S32768x4, .f32⟩ : BufTy).Contents (Elt F) → (⟨S32768x4, .f32⟩ : BufTy).Contents (Elt F)),
    StableHlo.binary main_v24 main_v27 main_v28 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.unary main_v9 main_v29 ((extractStridedSlice S32768x8 ![0, 7] · slices_S32768x63_S32768x8_0_7) : (⟨S32768x63, .f32⟩ : BufTy).Contents (Elt F) → (⟨S32768x8, .f32⟩ : BufTy).Contents (Elt F)),
    StableHlo.binary main_v29 main_v28 main_v30 (mulf : (⟨S32768x8, .f32⟩ : BufTy).Contents (Elt F) → (⟨S32768x8, .f32⟩ : BufTy).Contents (Elt F) → (⟨S32768x8, .f32⟩ : BufTy).Contents (Elt F)),
    StableHlo.nullary main_cst_5 (constant S_ .f32 0x3F800000#32),
    StableHlo.unary main_cst_5 main_v31 (broadcastInDim S32768x8 ![] bcast_S_S32768x8 : (⟨S_, .f32⟩ : BufTy).Contents (Elt F) → (⟨S32768x8, .f32⟩ : BufTy).Contents (Elt F)),
    StableHlo.binary main_v31 main_v29 main_v32 (subf : (⟨S32768x8, .f32⟩ : BufTy).Contents (Elt F) → (⟨S32768x8, .f32⟩ : BufTy).Contents (Elt F) → (⟨S32768x8, .f32⟩ : BufTy).Contents (Elt F)),
    StableHlo.binary main_v32 main_v28 main_v33 (mulf : (⟨S32768x8, .f32⟩ : BufTy).Contents (Elt F) → (⟨S32768x8, .f32⟩ : BufTy).Contents (Elt F) → (⟨S32768x8, .f32⟩ : BufTy).Contents (Elt F)),
    StableHlo.binary main_v30 main_v33 main_v34 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.unary main_v9 main_v35 ((extractStridedSlice S32768x16 ![0, 15] · slices_S32768x63_S32768x16_0_15) : (⟨S32768x63, .f32⟩ : BufTy).Contents (Elt F) → (⟨S32768x16, .f32⟩ : BufTy).Contents (Elt F)),
    StableHlo.binary main_v35 main_v34 main_v36 (mulf : (⟨S32768x16, .f32⟩ : BufTy).Contents (Elt F) → (⟨S32768x16, .f32⟩ : BufTy).Contents (Elt F) → (⟨S32768x16, .f32⟩ : BufTy).Contents (Elt F)),
    StableHlo.nullary main_cst_6 (constant S_ .f32 0x3F800000#32),
    StableHlo.unary main_cst_6 main_v37 (broadcastInDim S32768x16 ![] bcast_S_S32768x16 : (⟨S_, .f32⟩ : BufTy).Contents (Elt F) → (⟨S32768x16, .f32⟩ : BufTy).Contents (Elt F)),
    StableHlo.binary main_v37 main_v35 main_v38 (subf : (⟨S32768x16, .f32⟩ : BufTy).Contents (Elt F) → (⟨S32768x16, .f32⟩ : BufTy).Contents (Elt F) → (⟨S32768x16, .f32⟩ : BufTy).Contents (Elt F)),
    StableHlo.binary main_v38 main_v34 main_v39 (mulf : (⟨S32768x16, .f32⟩ : BufTy).Contents (Elt F) → (⟨S32768x16, .f32⟩ : BufTy).Contents (Elt F) → (⟨S32768x16, .f32⟩ : BufTy).Contents (Elt F)),
    StableHlo.binary main_v36 main_v39 main_v40 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.unary main_v9 main_v41 ((extractStridedSlice S32768x32 ![0, 31] · slices_S32768x63_S32768x32_0_31) : (⟨S32768x63, .f32⟩ : BufTy).Contents (Elt F) → (⟨S32768x32, .f32⟩ : BufTy).Contents (Elt F)),
    StableHlo.binary main_v41 main_v40 main_v42 (mulf : (⟨S32768x32, .f32⟩ : BufTy).Contents (Elt F) → (⟨S32768x32, .f32⟩ : BufTy).Contents (Elt F) → (⟨S32768x32, .f32⟩ : BufTy).Contents (Elt F)),
    StableHlo.nullary main_cst_7 (constant S_ .f32 0x3F800000#32),
    StableHlo.unary main_cst_7 main_v43 (broadcastInDim S32768x32 ![] bcast_S_S32768x32 : (⟨S_, .f32⟩ : BufTy).Contents (Elt F) → (⟨S32768x32, .f32⟩ : BufTy).Contents (Elt F)),
    StableHlo.binary main_v43 main_v41 main_v44 (subf : (⟨S32768x32, .f32⟩ : BufTy).Contents (Elt F) → (⟨S32768x32, .f32⟩ : BufTy).Contents (Elt F) → (⟨S32768x32, .f32⟩ : BufTy).Contents (Elt F)),
    StableHlo.binary main_v44 main_v40 main_v45 (mulf : (⟨S32768x32, .f32⟩ : BufTy).Contents (Elt F) → (⟨S32768x32, .f32⟩ : BufTy).Contents (Elt F) → (⟨S32768x32, .f32⟩ : BufTy).Contents (Elt F)),
    StableHlo.binary main_v42 main_v45 main_v46 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v46 main_arg3 main_v47 ((fun l r => Host.dotGeneral dot_S32768x64_S64x2048_S32768x2048_1_0_0_1_n_n none l r) : (⟨S32768x64, .f32⟩ : BufTy).Contents (Elt F) → (⟨S64x2048, .f32⟩ : BufTy).Contents (Elt F) → (⟨S32768x2048, .f32⟩ : BufTy).Contents (Elt F)) ]

theorem ops_eq : (ops : List (HloOp τ sig (Elt F))) = seg0 ++ seg1 ++ seg2 ++ seg3 ++ seg4 ++ seg5 ++ seg6 ++ seg7 := rfl

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub .., unary_bufs_sub .., binary_bufs_sub .., nullary_bufs_sub .., unary_bufs_sub .., binary_bufs_sub .., binary_bufs_sub .., binary_bufs_sub .., binary_bufs_sub ..⟩

end Cert.Hmoe.RefOps

end
-- ==== Proof.RefRun.lean ====
/-
  The reference's run, read stage by stage.

  The reference is a straight line of 57 array operations. Each of the six tree levels reads the level before it
  twice and the gate array once, so the composed term of the arguments, written out as one tree, repeats the gate
  computation many times over. Here the line is taken in eight stretches — the gates, the six levels, the last matrix
  product — and what each stretch leaves in the buffer it computes is stated for ANY contents before it, as one array
  operation of the buffers it reads (`TreeGate.levelVec` for a level). Chaining the eight statements gives the
  result buffer as `result` of the four argument arrays, with every intermediate array named once.
-/
import proofs.«129262_j43379169690208_2_alg».proof.Proof.RefOps
import proofs.«129262_j43379169690208_2_alg».proof.Proof.LibTreeGate

noncomputable section

namespace Cert.Hmoe.RefRun

open Cert.ReferenceIdeal Cert.ReferenceIdeal.Gen Idealize.ShloMosaic Idealize.ShloMosaic.TcCoe Idealize.SL.Sem
open Idealize.ShloMosaic.StableHlo Cert.TreeGate Cert.Hmoe.RefOps

variable {F : FTy → Type} [FloatOps F]

/-- The contents after two stretches in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What each stretch leaves -/

/-- The gate array: the logistic function, spelt `1 / (1 + exp (-z))`, of `x @ w` plus the bias along every row. -/
def gateVec (x0 : (⟨S32768x2048, .f32⟩ : BufTy).Contents (Elt F)) (x1 : (⟨S2048x63, .f32⟩ : BufTy).Contents (Elt F))
    (x2 : (⟨S63, .f32⟩ : BufTy).Contents (Elt F)) : (⟨S32768x63, .f32⟩ : BufTy).Contents (Elt F) :=
  Host.divf (broadcastInDim S32768x63 ![] bcast_S_S32768x63 (constant S_ .f32 0x3F800000#32))
    (addf (broadcastInDim S32768x63 ![] bcast_S_S32768x63 (constant S_ .f32 0x3F800000#32))
      (Host.exp (Host.negf (addf (Host.dotGeneral dot_S32768x2048_S2048x63_S32768x63_1_0_0_1_n_n none x0 x1)
        (broadcastInDim S32768x63 ![0, 1] bcast_S1x63_S32768x63_0_1 (broadcastInDim S1x63 ![1] bcast_S63_S1x63_1 x2))))))

/-- An array of ones of width `1`, `2`, … as the reference builds it: the scalar `1.0` laid over the shape. -/
abbrev ones1 : (⟨S32768x1, .f32⟩ : BufTy).Contents (Elt F) := broadcastInDim S32768x1 ![] bcast_S_S32768x1 (constant S_ .f32 0x3F800000#32)
abbrev ones2 : (⟨S32768x2, .f32⟩ : BufTy).Contents (Elt F) := broadcastInDim S32768x2 ![] bcast_S_S32768x2 (constant S_ .f32 0x3F800000#32)
abbrev ones4 : (⟨S32768x4, .f32⟩ : BufTy).Contents (Elt F) := broadcastInDim S32768x4 ![] bcast_S_S32768x4 (constant S_ .f32 0x3F800000#32)
abbrev ones8 : (⟨S32768x8, .f32⟩ : BufTy).Contents (Elt F) := broadcastInDim S32768x8 ![] bcast_S_S32768x8 (constant S_ .f32 0x3F800000#32)
abbrev ones16 : (⟨S32768x16, .f32⟩ : BufTy).Contents (Elt F) := broadcastInDim S32768x16 ![] bcast_S_S32768x16 (constant S_ .f32 0x3F800000#32)
abbrev ones32 : (⟨S32768x32, .f32⟩ : BufTy).Contents (Elt F) := broadcastInDim S32768x32 ![] bcast_S_S32768x32 (constant S_ .f32 0x3F800000#32)

/-- The first stretch leaves the gate array of the three arguments it reads, and does not write `responses`. -/
theorem seg0_v9 (W : Valuation τ sig (Elt F)) :
    after seg0 W (Proc.devRef .tc main_v9)
      = gateVec (W (Proc.devRef .tc main_arg0)) (W (Proc.devRef .tc main_arg1)) (W (Proc.devRef .tc main_arg2)) := by
  after_results
  rfl
theorem seg0_arg3 (W : Valuation τ sig (Elt F)) : after seg0 W (Proc.devRef .tc main_arg3) = W (Proc.devRef .tc main_arg3) := by
  after_results_simp

/-- Each level's stretch leaves `levelVec` of the gate array and of the level before it, and writes neither the gate
    array nor `responses`. The first level starts from a column of ones. -/
theorem seg1_out (W : Valuation τ sig (Elt F)) :
    after seg1 W (Proc.devRef .tc main_v16)
      = levelVec 0 (W (Proc.devRef .tc main_v9)) ones1 ones1
          slices_S32768x63_S32768x1_0_0 concatenates_S32768x1_S32768x1_S32768x2_d1 := by
  after_results
  rfl
theorem seg1_v9 (W : Valuation τ sig (Elt F)) : after seg1 W (Proc.devRef .tc main_v9) = W (Proc.devRef .tc main_v9) := by
  after_results_simp
theorem seg1_arg3 (W : Valuation τ sig (Elt F)) : after seg1 W (Proc.devRef .tc main_arg3) = W (Proc.devRef .tc main_arg3) := by
  after_results_simp

theorem seg2_out (W : Valuation τ sig (Elt F)) :
    after seg2 W (Proc.devRef .tc main_v22)
      = levelVec 1 (W (Proc.devRef .tc main_v9)) (W (Proc.devRef .tc main_v16)) ones2
          slices_S32768x63_S32768x2_0_1 concatenates_S32768x2_S32768x2_S32768x4_d1 := by
  after_results
  rfl
theorem seg2_v9 (W : Valuation τ sig (Elt F)) : after seg2 W (Proc.devRef .tc main_v9) = W (Proc.devRef .tc main_v9) := by
  after_results_simp
theorem seg2_arg3 (W : Valuation τ sig (Elt F)) : after seg2 W (Proc.devRef .tc main_arg3) = W (Proc.devRef .tc main_arg3) := by
  after_results_simp

theorem seg3_out (W : Valuation τ sig (Elt F)) :
    after seg3 W (Proc.devRef .tc main_v28)
      = levelVec 3 (W (Proc.devRef .tc main_v9)) (W (Proc.devRef .tc main_v22)) ones4
          slices_S32768x63_S32768x4_0_3 concatenates_S32768x4_S32768x4_S32768x8_d1 := by
  after_results
  rfl
theorem seg3_v9 (W : Valuation τ sig (Elt F)) : after seg3 W (Proc.devRef .tc main_v9) = W (Proc.devRef .tc main_v9) := by
  after_results_simp
theorem seg3_arg3 (W : Valuation τ sig (Elt F)) : after seg3 W (Proc.devRef .tc main_arg3) = W (Proc.devRef .tc main_arg3) := by
  after_results_simp

theorem seg4_out (W : Valuation τ sig (Elt F)) :
    after seg4 W (Proc.devRef .tc main_v34)
      = levelVec 7 (W (Proc.devRef .tc main_v9)) (W (Proc.devRef .tc main_v28)) ones8
          slices_S32768x63_S32768x8_0_7 concatenates_S32768x8_S32768x8_S32768x16_d1 := by
  after_results
  rfl
theorem seg4_v9 (W : Valuation τ sig (Elt F)) : after seg4 W (Proc.devRef .tc main_v9) = W (Proc.devRef .tc main_v9) := by
  after_results_simp
theorem seg4_arg3 (W : Valuation τ sig (Elt F)) : after seg4 W (Proc.devRef .tc main_arg3) = W (Proc.devRef .tc main_arg3) := by
  after_results_simp

theorem seg5_out (W : Valuation τ sig (Elt F)) :
    after seg5 W (Proc.devRef .tc main_v40)
      = levelVec 15 (W (Proc.devRef .tc main_v9)) (W (Proc.devRef .tc main_v34)) ones16
          slices_S32768x63_S32768x16_0_15 concatenates_S32768x16_S32768x16_S32768x32_d1 := by
  after_results
  rfl
theorem seg5_v9 (W : Valuation τ sig (Elt F)) : after seg5 W (Proc.devRef .tc main_v9) = W (Proc.devRef .tc main_v9) := by
  after_results_simp
theorem seg5_arg3 (W : Valuation τ sig (Elt F)) : after seg5 W (Proc.devRef .tc main_arg3) = W (Proc.devRef .tc main_arg3) := by
  after_results_simp

theorem seg6_out (W : Valuation τ sig (Elt F)) :
    after seg6 W (Proc.devRef .tc main_v46)
      = levelVec 31 (W (Proc.devRef .tc main_v9)) (W (Proc.devRef .tc main_v40)) ones32
          slices_S32768x63_S32768x32_0_31 concatenates_S32768x32_S32768x32_S32768x64_d1 := by
  after_results
  rfl
theorem seg6_v9 (W : Valuation τ sig (Elt F)) : after seg6 W (Proc.devRef .tc main_v9) = W (Proc.devRef .tc main_v9) := by
  after_results_simp
theorem seg6_arg3 (W : Valuation τ sig (Elt F)) : after seg6 W (Proc.devRef .tc main_arg3) = W (Proc.devRef .tc main_arg3) := by
  after_results_simp

/-- The last stretch is the one matrix product of the leaf weights with `responses`. -/
theorem seg7_out (W : Valuation τ sig (Elt F)) :
    after seg7 W (Proc.devRef .tc main_v47)
      = Host.dotGeneral dot_S32768x64_S64x2048_S32768x2048_1_0_0_1_n_n none
          (W (Proc.devRef .tc main_v46)) (W (Proc.devRef .tc main_arg3)) := by
  after_results

/-! ## The whole line -/

/-- The reference's result as one term of its four argument arrays: the last product, with `responses`, of the six
    levels on the gate array. -/
def result (x0 : (⟨S32768x2048, .f32⟩ : BufTy).Contents (Elt F)) (x1 : (⟨S2048x63, .f32⟩ : BufTy).Contents (Elt F))
    (x2 : (⟨S63, .f32⟩ : BufTy).Contents (Elt F)) (x3 : (⟨S64x2048, .f32⟩ : BufTy).Contents (Elt F)) :
    (⟨S32768x2048, .f32⟩ : BufTy).Contents (Elt F) :=
  Host.dotGeneral dot_S32768x64_S64x2048_S32768x2048_1_0_0_1_n_n none
    (leavesVec (gateVec x0 x1 x2) ones1 ones1 ones2 ones4 ones8 ones16 ones32
      slices_S32768x63_S32768x1_0_0 slices_S32768x63_S32768x2_0_1 slices_S32768x63_S32768x4_0_3
      slices_S32768x63_S32768x8_0_7 slices_S32768x63_S32768x16_0_15 slices_S32768x63_S32768x32_0_31
      concatenates_S32768x1_S32768x1_S32768x2_d1 concatenates_S32768x2_S32768x2_S32768x4_d1
      concatenates_S32768x4_S32768x4_S32768x8_d1 concatenates_S32768x8_S32768x8_S32768x16_d1
      concatenates_S32768x16_S32768x16_S32768x32_d1 concatenates_S32768x32_S32768x32_S32768x64_d1) x3

/-- After the whole line the result buffer holds `result` of the argument buffers' contents before it. -/
theorem out_eq (V : Valuation τ sig (Elt F)) :
    after ops V (Proc.devRef .tc main_v47)
      = result (V (Proc.devRef .tc main_arg0)) (V (Proc.devRef .tc main_arg1)) (V (Proc.devRef .tc main_arg2))
          (V (Proc.devRef .tc main_arg3)) := by
  rw [ops_eq]
  simp only [after_app]
  rw [seg7_out]
  rw [seg6_out, seg6_arg3, seg5_out, seg5_v9, seg5_arg3, seg4_out, seg4_v9, seg4_arg3, seg3_out, seg3_v9, seg3_arg3,
    seg2_out, seg2_v9, seg2_arg3, seg1_out, seg1_v9, seg1_arg3, seg0_v9, seg0_arg3]
  rfl

/-- No operation of the line writes an argument buffer. -/
theorem arg0_kept (V : Valuation τ sig (Elt F)) : after ops V (Proc.devRef .tc main_arg0) = V (Proc.devRef .tc main_arg0) := by
  after_results_simp
theorem arg1_kept (V : Valuation τ sig (Elt F)) : after ops V (Proc.devRef .tc main_arg1) = V (Proc.devRef .tc main_arg1) := by
  after_results_simp
theorem arg2_kept (V : Valuation τ sig (Elt F)) : after ops V (Proc.devRef .tc main_arg2) = V (Proc.devRef .tc main_arg2) := by
  after_results_simp
theorem arg3_kept (V : Valuation τ sig (Elt F)) : after ops V (Proc.devRef .tc main_arg3) = V (Proc.devRef .tc main_arg3) := by
  after_results_simp

/-- On every device, from any memory with zero counters: every weakly fair execution of the reference terminates
    with the result buffer at `result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans (out_eq _),
      (h c main_arg0).trans (arg0_kept _),
      (h c main_arg1).trans (arg1_kept _),
      (h c main_arg2).trans (arg2_kept _),
      (h c main_arg3).trans (arg3_kept _)⟩)
    (run_seq scopedRefs_eq scopedSems_eq defs main (fun _ => ops) main_eq (fun _ => ops_sub) m ρ)

end Cert.Hmoe.RefRun

end
-- ==== Proof.RefValue.lean ====
/-
  The reference computes `Hmoe.spec`.

  Read entry by entry, the reference's result (`RefRun.result`) is: the gate pre-activations `x @ w + b` (the bias
  laid along every row), the logistic function spelt as `1 / (1 + exp (-z))`, the six levels of the tree, and the
  product of the 64 leaf weights with `responses`. Both matrix products are plain sums of products over the
  contracted axis on the extended reals.
-/
import proofs.«129262_j43379169690208_2_alg».proof.Proof.RefRun
import proofs.«129262_j43379169690208_2_alg».proof.Proof.Spec
import Idealize.ShloMosaic.PureOps.Ideal.Laws
import Idealize.ShloMosaic.PureOps.IdealRules
import Idealize.ShloMosaic.Lib.Pipeline.Value
import Idealize.ShloMosaic.Lib.ValueIdx

noncomputable section

namespace Cert.Hmoe.Ref

open Cert.ReferenceIdeal Cert.ReferenceIdeal.Gen Cert.Hmoe.RefRun
open Idealize.ShloMosaic Idealize.ShloMosaic.ValueIdx Cert.TreeGate Cert.Hmoe

/-- The word of `1.0` denotes the real number one. -/
theorem one_eq : Ideal.ofBits .f32 0x3F800000#32 = (1 : EReal) := IdealRules.sign_bit.ideal_onePat .f32

/-! ## The two matrix products read at an entry -/

theorem d1_lhs0 (i : S32768x63.Idx) (q : dot_S32768x2048_S2048x63_S32768x63_1_0_0_1_n_n.contr.Idx) :
    (dot_S32768x2048_S2048x63_S32768x63_1_0_0_1_n_n.lhsIdx i q 0).val = (i 0).val := by
  unfold DotDims.lhsIdx
  rw [dif_neg (show ¬(0 : Fin S32768x2048.rank) ∈ dot_S32768x2048_S2048x63_S32768x63_1_0_0_1_n_n.lhsBatch by decide),
    dif_pos (show (0 : Fin S32768x2048.rank) ∈ dot_S32768x2048_S2048x63_S32768x63_1_0_0_1_n_n.lhsNonContracting by decide)]
  rfl
theorem d1_lhs1 (i : S32768x63.Idx) (q : dot_S32768x2048_S2048x63_S32768x63_1_0_0_1_n_n.contr.Idx) :
    (dot_S32768x2048_S2048x63_S32768x63_1_0_0_1_n_n.lhsIdx i q 1).val = (q ⟨0, by decide⟩).val :=
  dot_S32768x2048_S2048x63_S32768x63_1_0_0_1_n_n.lhsIdx_val_of_single rfl i q
theorem d1_rhs0 (i : S32768x63.Idx) (q : dot_S32768x2048_S2048x63_S32768x63_1_0_0_1_n_n.contr.Idx) :
    (dot_S32768x2048_S2048x63_S32768x63_1_0_0_1_n_n.rhsIdx i q 0).val = (q ⟨0, by decide⟩).val :=
  dot_S32768x2048_S2048x63_S32768x63_1_0_0_1_n_n.rhsIdx_val_of_single rfl i q
theorem d1_rhs1 (i : S32768x63.Idx) (q : dot_S32768x2048_S2048x63_S32768x63_1_0_0_1_n_n.contr.Idx) :
    (dot_S32768x2048_S2048x63_S32768x63_1_0_0_1_n_n.rhsIdx i q 1).val = (i 1).val := by
  unfold DotDims.rhsIdx
  rw [dif_neg (show ¬(1 : Fin S2048x63.rank) ∈ dot_S32768x2048_S2048x63_S32768x63_1_0_0_1_n_n.rhsBatch by decide),
    dif_pos (show (1 : Fin S2048x63.rank) ∈ dot_S32768x2048_S2048x63_S32768x63_1_0_0_1_n_n.rhsNonContracting by decide)]
  rfl

/-- The first product, rows of `x` against columns of `w`: entry `(R, c)` is the sum over the 2048 features. -/
theorem hdot1_apply (lhs : FVec Ideal S32768x2048 .f32) (rhs : FVec Ideal S2048x63 .f32) (R : Fin 32768) (c : Fin 63) :
    Host.dotGeneral dot_S32768x2048_S2048x63_S32768x63_1_0_0_1_n_n none lhs rhs (ix2 R c)
      = ∑ k : Fin 2048, lhs (ix2 R k) * rhs (ix2 k c) := by
  simp only [Host.dotGeneral]
  rw [Ideal.dotGeneral_apply,
    ← Equiv.sum_comp (contrEquiv1 dot_S32768x2048_S2048x63_S32768x63_1_0_0_1_n_n 2048 rfl rfl).symm]
  refine Finset.sum_congr rfl fun k _ => ?_
  have hk := contrEquiv1_symm_val dot_S32768x2048_S2048x63_S32768x63_1_0_0_1_n_n 2048 rfl rfl k
  have el : dot_S32768x2048_S2048x63_S32768x63_1_0_0_1_n_n.lhsIdx (ix2 R c)
      ((contrEquiv1 dot_S32768x2048_S2048x63_S32768x63_1_0_0_1_n_n 2048 rfl rfl).symm k) = ix2 R k :=
    funext fun a => Fin.ext (by
      match a with
      | ⟨0, _⟩ => exact d1_lhs0 _ _
      | ⟨1, _⟩ => exact (d1_lhs1 _ _).trans hk)
  have er : dot_S32768x2048_S2048x63_S32768x63_1_0_0_1_n_n.rhsIdx (ix2 R c)
      ((contrEquiv1 dot_S32768x2048_S2048x63_S32768x63_1_0_0_1_n_n 2048 rfl rfl).symm k) = ix2 k c :=
    funext fun a => Fin.ext (by
      match a with
      | ⟨0, _⟩ => exact (d1_rhs0 _ _).trans hk
      | ⟨1, _⟩ => exact d1_rhs1 _ _)
  rw [el, er]

theorem d2_lhs0 (i : S32768x2048.Idx) (q : dot_S32768x64_S64x2048_S32768x2048_1_0_0_1_n_n.contr.Idx) :
    (dot_S32768x64_S64x2048_S32768x2048_1_0_0_1_n_n.lhsIdx i q 0).val = (i 0).val := by
  unfold DotDims.lhsIdx
  rw [dif_neg (show ¬(0 : Fin S32768x64.rank) ∈ dot_S32768x64_S64x2048_S32768x2048_1_0_0_1_n_n.lhsBatch by decide),
    dif_pos (show (0 : Fin S32768x64.rank) ∈ dot_S32768x64_S64x2048_S32768x2048_1_0_0_1_n_n.lhsNonContracting by decide)]
  rfl
theorem d2_lhs1 (i : S32768x2048.Idx) (q : dot_S32768x64_S64x2048_S32768x2048_1_0_0_1_n_n.contr.Idx) :
    (dot_S32768x64_S64x2048_S32768x2048_1_0_0_1_n_n.lhsIdx i q 1).val = (q ⟨0, by decide⟩).val :=
  dot_S32768x64_S64x2048_S32768x2048_1_0_0_1_n_n.lhsIdx_val_of_single rfl i q
theorem d2_rhs0 (i : S32768x2048.Idx) (q : dot_S32768x64_S64x2048_S32768x2048_1_0_0_1_n_n.contr.Idx) :
    (dot_S32768x64_S64x2048_S32768x2048_1_0_0_1_n_n.rhsIdx i q 0).val = (q ⟨0, by decide⟩).val :=
  dot_S32768x64_S64x2048_S32768x2048_1_0_0_1_n_n.rhsIdx_val_of_single rfl i q
theorem d2_rhs1 (i : S32768x2048.Idx) (q : dot_S32768x64_S64x2048_S32768x2048_1_0_0_1_n_n.contr.Idx) :
    (dot_S32768x64_S64x2048_S32768x2048_1_0_0_1_n_n.rhsIdx i q 1).val = (i 1).val := by
  unfold DotDims.rhsIdx
  rw [dif_neg (show ¬(1 : Fin S64x2048.rank) ∈ dot_S32768x64_S64x2048_S32768x2048_1_0_0_1_n_n.rhsBatch by decide),
    dif_pos (show (1 : Fin S64x2048.rank) ∈ dot_S32768x64_S64x2048_S32768x2048_1_0_0_1_n_n.rhsNonContracting by decide)]
  rfl

/-- The second product, leaf weights against `responses`: entry `(R, j)` is the sum over the 64 leaves. -/
theorem hdot2_apply (lhs : FVec Ideal S32768x64 .f32) (rhs : FVec Ideal S64x2048 .f32) (R : Fin 32768) (j : Fin 2048) :
    Host.dotGeneral dot_S32768x64_S64x2048_S32768x2048_1_0_0_1_n_n none lhs rhs (ix2 R j)
      = ∑ k : Fin 64, lhs (ix2 R k) * rhs (ix2 k j) := by
  simp only [Host.dotGeneral]
  rw [Ideal.dotGeneral_apply,
    ← Equiv.sum_comp (contrEquiv1 dot_S32768x64_S64x2048_S32768x2048_1_0_0_1_n_n 64 rfl rfl).symm]
  refine Finset.sum_congr rfl fun k _ => ?_
  have hk := contrEquiv1_symm_val dot_S32768x64_S64x2048_S32768x2048_1_0_0_1_n_n 64 rfl rfl k
  have el : dot_S32768x64_S64x2048_S32768x2048_1_0_0_1_n_n.lhsIdx (ix2 R j)
      ((contrEquiv1 dot_S32768x64_S64x2048_S32768x2048_1_0_0_1_n_n 64 rfl rfl).symm k) = ix2 R k :=
    funext fun a => Fin.ext (by
      match a with
      | ⟨0, _⟩ => exact d2_lhs0 _ _
      | ⟨1, _⟩ => exact (d2_lhs1 _ _).trans hk)
  have er : dot_S32768x64_S64x2048_S32768x2048_1_0_0_1_n_n.rhsIdx (ix2 R j)
      ((contrEquiv1 dot_S32768x64_S64x2048_S32768x2048_1_0_0_1_n_n 64 rfl rfl).symm k) = ix2 k j :=
    funext fun a => Fin.ext (by
      match a with
      | ⟨0, _⟩ => exact (d2_rhs0 _ _).trans hk
      | ⟨1, _⟩ => exact d2_rhs1 _ _)
  rw [el, er]

/-! ## The gates -/

/-- The bias, laid first as one row and then along every row, read at `(R, c)`: entry `c` of the bias. -/
theorem bias_apply (x2 : FVec Ideal S63 .f32) (R : Fin 32768) (c : Fin 63) :
    broadcastInDim S32768x63 ![0, 1] bcast_S1x63_S32768x63_0_1 (broadcastInDim S1x63 ![1] bcast_S63_S1x63_1 x2) (ix2 R c)
      = x2 (ix1 c) := by
  refine (broadcastInDim_apply _ bcast_S1x63_S32768x63_0_1 _ (ix2 R c) (ix2 (0 : Fin 1) c) (fun a => ?_)).trans
    (broadcastInDim_apply _ bcast_S63_S1x63_1 x2 (ix2 (0 : Fin 1) c) (ix1 c) (fun a => ?_))
  · match a with
    | ⟨0, _⟩ => show (0 : ℕ) = if (1 : Nat) = 1 then 0 else R.val; rw [if_pos rfl]
    | ⟨1, _⟩ => show c.val = if (63 : Nat) = 1 then 0 else c.val; rw [if_neg (by decide)]
  · match a with
    | ⟨0, _⟩ => show c.val = if (63 : Nat) = 1 then 0 else c.val; rw [if_neg (by decide)]

/-- The reference's gate array at row `R`, node `c`: the logistic function of the row's pre-activation. -/
theorem gate_apply (x0 : FVec Ideal S32768x2048 .f32) (x1 : FVec Ideal S2048x63 .f32) (x2 : FVec Ideal S63 .f32)
    (R : Fin 32768) (c : Fin 63) :
    gateVec (F := Ideal) x0 x1 x2 (ix2 R c)
      = Ideal.logistic ((∑ d : Fin 2048, x0 (ix2 R d) * x1 (ix2 d c)) + x2 (ix1 c)) := by
  unfold gateVec
  show Ideal.div (Ideal.ofBits .f32 0x3F800000#32) (Ideal.ofBits .f32 0x3F800000#32
      + Ideal.exp (-(Host.dotGeneral dot_S32768x2048_S2048x63_S32768x63_1_0_0_1_n_n none x0 x1 (ix2 R c)
        + broadcastInDim S32768x63 ![0, 1] bcast_S1x63_S32768x63_0_1 (broadcastInDim S1x63 ![1] bcast_S63_S1x63_1 x2) (ix2 R c))))
    = Ideal.div 1 (1 + Ideal.exp (-(_ + _)))
  rw [hdot1_apply, bias_apply, one_eq]

/-- So row `R` of the gate array is the specification's row of gates. -/
theorem gateRow_eq (x0 : FVec Ideal S32768x2048 .f32) (x1 : FVec Ideal S2048x63 .f32) (x2 : FVec Ideal S63 .f32)
    (R : Fin 32768) : rowOf (gateVec (F := Ideal) x0 x1 x2) R = gateRow x0 x1 x2 R := by
  funext c
  unfold rowOf gateRow
  by_cases hc : c < 63
  · rw [dif_pos hc, dif_pos hc, gate_apply]
  · rw [dif_neg hc, dif_neg hc]

/-! ## The result -/

/-- The reference's result is the specification of its four arguments. -/
theorem result_eq (x0 : FVec Ideal S32768x2048 .f32) (x1 : FVec Ideal S2048x63 .f32) (x2 : FVec Ideal S63 .f32)
    (x3 : FVec Ideal S64x2048 .f32) : result (F := Ideal) x0 x1 x2 x3 = spec x0 x1 x2 x3 := by
  funext i
  obtain ⟨R, j, rfl⟩ : ∃ (R : Fin 32768) (j : Fin 2048), i = ix2 R j := ⟨i 0, i 1, eq_ix2 i⟩
  unfold result
  rw [hdot2_apply, spec_apply]
  unfold outAt
  refine Finset.sum_congr rfl fun k _ => ?_
  rw [leavesVec_apply one, gateRow_eq] <;> intro i <;> rfl

end Cert.Hmoe.Ref

end
-- ==== Proof.lean ====
/- The proof of `Cert.Claim`: a hierarchical mixture of experts. Each row of `x` gives 63 gate probabilities
   `σ(x @ w + b)`, one per internal node of a depth-7 binary tree; walking the tree multiplies a left child's weight by
   its parent's gate and a right child's by one minus it, leaving 64 leaf weights per row; the result is the leaf weights
   times `responses`. The kernel does this for 512 rows per grid point, with `tpu.logistic` and two matrix products
   into zero accumulators; the reference does it for all rows at once, with the logistic function spelt
   `1 / (1 + exp (-z))` and two `dot_general`s. On the extended reals both are `Hmoe.spec` (Proof/Spec.lean) of the
   four arguments, entry by entry: the kernel by Proof/KernValue.lean (one point's block) and Proof/KernBlocks.lean
   (the 64 blocks tile the result), the reference by Proof/RefRun.lean (its run, stage by stage) and
   Proof/RefValue.lean (its term read at an entry); the tree level shared by both sides is Proof/LibTreeGate.lean.
   No law is needed beyond reading each operation at an index — the two programs apply the same operations in the
   same order to each row —, so the precondition is never opened. The idealization rewrote nothing, so
   `preserves` is `True`. -/
import proofs.«129262_j43379169690208_2_alg».proof.Defs
import proofs.«129262_j43379169690208_2_alg».proof.Proof.Gen.Kernel
import proofs.«129262_j43379169690208_2_alg».proof.Proof.Gen.Kernel.Frame
import proofs.«129262_j43379169690208_2_alg».proof.Proof.Gen.KernelIdeal
import proofs.«129262_j43379169690208_2_alg».proof.Proof.Gen.KernelIdeal.Frame
import proofs.«129262_j43379169690208_2_alg».proof.Proof.Gen.ReferenceIdeal
import proofs.«129262_j43379169690208_2_alg».proof.Proof.Gen.Pre_finite_inputs
import proofs.«129262_j43379169690208_2_alg».proof.Proof.KernBlocks
import proofs.«129262_j43379169690208_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.Hmoe.RefRun.run (F := Ideal) m ρ)

theorem preserves : Cert.preserves_Kernel_KernelIdeal := trivial

/-- Both runs end with the result at `Hmoe.spec` of arguments that agree. -/
theorem algebraic : Cert.algebraic_KernelIdeal_ReferenceIdeal := by
  intro m ρ m' ρ' _ hagree
  refine ⟨_, Cert.Hmoe.Blocks.run m ρ, ?_⟩
  refine (θ_run Cert.ReferenceIdeal.defs _ _).mono (fun _ h c => ⟨(h c).1.trans ?_, (h c).2⟩)
    (Cert.Hmoe.RefRun.run (F := Ideal) m' ρ')
  rw [Cert.Hmoe.Ref.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
